-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v142) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_arg6 : FVec F S128x64 .f32) (main_arg7 : FVec F S64 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x64 .f32 := Host.absf main_arg6
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x64 .f32) (main_arg3 : FVec F S64 .f32) (main_arg4 : FVec F S64x128 .f32) (main_arg5 : FVec F S128 .f32) (main_arg6 : FVec F S128x64 .f32) (main_arg7 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x64 .f32 := Host.absf main_arg2
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S5000x128 : Shape := ⟨2, ![5000, 128]⟩
abbrev S5000x64 : Shape := ⟨2, ![5000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩

abbrev nBuf : Space → Nat
  | .hbm => 104
  | .vmem => 17
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x64, .f32⟩
  | .hbm, ⟨3, _⟩ => ⟨S64, .f32⟩
  | .hbm, ⟨4, _⟩ => ⟨S64x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x64, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x64, .f32⟩
  | .hbm, ⟨58, _⟩ => ⟨S1700000x1, .f32⟩
  | .hbm, ⟨59, _⟩ => ⟨S1700000x64, .f32⟩
  | .hbm, ⟨60, _⟩ => ⟨S1700000x64, .f32⟩
  | .hbm, ⟨61, _⟩ => ⟨S_, .f32⟩
  | .hbm, ⟨62, _⟩ => ⟨S100000x64, .f32⟩
  | .hbm, ⟨63, _⟩ => ⟨S1700000x1, .i32⟩
  | .hbm, ⟨64, _⟩ => ⟨S100000x64, .f32⟩
  | .hbm, ⟨65, _⟩ => ⟨S1x64, .f32⟩
  | .hbm, ⟨66, _⟩ => ⟨S100000x128, .f32⟩
  | .hbm, ⟨67, _⟩ => ⟨S_, .i32⟩
  | .hbm, ⟨68, _⟩ => ⟨S1700000, .i32⟩
  | .hbm, ⟨69, _⟩ => ⟨S1700000, .i1⟩
  | .hbm, ⟨70, _⟩ => ⟨S_, .i32⟩
  | .hbm, ⟨71, _⟩ => ⟨S1700000, .i32⟩
  | .hbm, ⟨72, _⟩ => ⟨S1700000, .i32⟩
  | .hbm, ⟨73, _⟩ => ⟨S1700000, .i32⟩
  | .hbm, ⟨74, _⟩ => ⟨S1700000x1, .i32⟩
  | .hbm, ⟨75, _⟩ => ⟨S1700000x128, .f32⟩
  | .hbm, ⟨76, _⟩ => ⟨S1700000x1, .f32⟩
  | .hbm, ⟨77, _⟩ => ⟨S1700000x128, .f32⟩
  | .hbm, ⟨78, _⟩ => ⟨S1700000x128, .f32⟩
  | .hbm, ⟨79, _⟩ => ⟨S_, .f32⟩
  | .hbm, ⟨80, _⟩ => ⟨S100000x128, .f32⟩
  | .hbm, ⟨81, _⟩ => ⟨S1700000x1, .i32⟩
  | .hbm, ⟨82, _⟩ => ⟨S100000x128, .f32⟩
  | .hbm, ⟨83, _⟩ => ⟨S1x128, .f32⟩
  | .hbm, ⟨84, _⟩ => ⟨S100000x64, .f32⟩
  | .hbm, ⟨85, _⟩ => ⟨S_, .i32⟩
  | .hbm, ⟨86, _⟩ => ⟨S1700000, .i32⟩
  | .hbm, ⟨87, _⟩ => ⟨S1700000, .i1⟩
  | .hbm, ⟨88, _⟩ => ⟨S_, .i32⟩
  | .hbm, ⟨89, _⟩ => ⟨S1700000, .i32⟩
  | .hbm, ⟨90, _⟩ => ⟨S1700000, .i32⟩
  | .hbm, ⟨91, _⟩ => ⟨S1700000, .i32⟩
  | .hbm, ⟨92, _⟩ => ⟨S1700000x1, .i32⟩
  | .hbm, ⟨93, _⟩ => ⟨S1700000x64, .f32⟩
  | .hbm, ⟨94, _⟩ => ⟨S1700000x1, .f32⟩
  | .hbm, ⟨95, _⟩ => ⟨S1700000x64, .f32⟩
  | .hbm, ⟨96, _⟩ => ⟨S1700000x64, .f32⟩
  | .hbm, ⟨97, _⟩ => ⟨S_, .f32⟩
  | .hbm, ⟨98, _⟩ => ⟨S100000x64, .f32⟩
  | .hbm, ⟨99, _⟩ => ⟨S1700000x1, .i32⟩
  | .hbm, ⟨100, _⟩ => ⟨S100000x64, .f32⟩
  | .hbm, ⟨101, _⟩ => ⟨S1x64, .f32⟩
  | .hbm, ⟨102, _⟩ => ⟨S100000x64, .f32⟩
  | .hbm, ⟨103, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S128x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S64x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S128x64, .f32⟩
  | .local _ .vmem, ⟨15, _⟩ => ⟨S5000x64, .f32⟩
  | .local _ .vmem, ⟨16, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_9 : Ref sig .tc := ⟨.hbm, 67, rfl⟩
abbrev main_v46 : Ref sig .tc := ⟨.hbm, 68, rfl⟩
abbrev main_v47 : Ref sig .tc := ⟨.hbm, 69, rfl⟩
abbrev main_c_10 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_11 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_c_12 : Ref sig .tc := ⟨.hbm, 85, rfl⟩
abbrev main_v61 : Ref sig .tc := ⟨.hbm, 86, rfl⟩
abbrev main_v62 : Ref sig .tc := ⟨.hbm, 87, rfl⟩
abbrev main_c_13 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_cst_14 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S5000x64_S5000x64_0_0 : ∀ a, (![0, 0] : Fin 2 → Nat) a + S5000x64.size a ≤ S5000x64.size a
  h_S5000x64 : 0 < S5000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x128_S64x128_0_0 : ∀ a, (![0, 0] : Fin 2 → Nat) a + S64x128.size a ≤ S64x128.size a
  h_S64x128 : 0 < S64x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x64_S5000x64_1_0_0_1_n_n_wf : DotDims.WF S5000x128 S128x64 S5000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S5000x64_S64x128_S5000x128_1_0_0_1_n_n_wf : DotDims.WF S5000x64 S64x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S128x64.size a
  hwx0_1 : ∀ i : grid0.Coords, EltTy.bits .f32 = 32 ∨ (Rect.block (s := S128x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .f32 = 32 ∨ (Rect.block (s := S64x128) S64x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x64.size a ≤ S128x64.size a
  hwx2_2 : ∀ i : grid2.Coords, EltTy.bits .f32 = 32 ∨ (Rect.block (s := S128x64) S128x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x64.size a ≤ S100000x64.size a
  hwx2_3 : ∀ i : grid2.Coords, EltTy.bits .f32 = 32 ∨ (Rect.block (s := S100000x64) S5000x64.size (cc2_transform_3 i) (hinb2_3 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S5000x64_S64x128_S5000x128_1_0_0_1_n_n : DotDims S5000x64 S64x128 S5000x128 where
  lhsContracting := [1]
  rhsContracting := [0]
  lhsNonContracting := [0]
  rhsNonContracting := [1]
  lhsBatch := []
  rhsBatch := []
  wf := dot_S5000x64_S64x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S128x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S5000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x64 : Shape := ⟨2, ![128, 64]⟩
abbrev S64 : Shape := ⟨1, ![64]⟩
abbrev S64x128 : Shape := ⟨2, ![64, 128]⟩
abbrev S128 : Shape := ⟨1, ![128]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x64 : Shape := ⟨2, ![100000, 64]⟩
abbrev S1700000x64 : Shape := ⟨2, ![1700000, 64]⟩
abbrev S1x64 : Shape := ⟨2, ![1, 64]⟩
abbrev S1700000x128 : Shape := ⟨2, ![1700000, 128]⟩
abbrev S1x128 : Shape := ⟨2, ![1, 128]⟩

abbrev nBuf : Space → Nat
  | .hbm => 194
  | .vmem => 0
  | .smem => 0
  | _ => 0

abbrev hbmTy0_0 (i : Nat) : BufTy := match i % 128 with
  | 0 => ⟨S100000x128, .f32⟩
  | 1 => ⟨S2x1600000, .i32⟩
  | 2 => ⟨S128x64, .f32⟩
  | 3 => ⟨S64, .f32⟩
  | 4 => ⟨S64x128, .f32⟩
  | 5 => ⟨S128, .f32⟩
  | 6 => ⟨S128x64, .f32⟩
  | 7 => ⟨S64, .f32⟩
  | 8 => ⟨S100000, .i32⟩
  | 9 => ⟨S1x1600000, .i32⟩
  | 10 => ⟨S1600000, .i32⟩
  | 11 => ⟨S1700000, .i32⟩
  | 12 => ⟨S1x1600000, .i32⟩
  | 13 => ⟨S1600000, .i32⟩
  | 14 => ⟨S1700000, .i32⟩
  | 15 => ⟨S_, .f32⟩
  | 16 => ⟨S1700000, .f32⟩
  | 17 => ⟨S_, .f32⟩
  | 18 => ⟨S100000, .f32⟩
  | 19 => ⟨S1700000x1, .i32⟩
  | 20 => ⟨S100000, .f32⟩
  | 21 => ⟨S_, .f32⟩
  | 22 => ⟨S100000, .f32⟩
  | 23 => ⟨S100000, .i1⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000, .f32⟩
  | 47 => ⟨S1700000, .f32⟩
  | 48 => ⟨S100000x64, .f32⟩
  | 49 => ⟨S_, .i32⟩
  | 50 => ⟨S1700000, .i32⟩
  | 51 => ⟨S1700000, .i1⟩
  | 52 => ⟨S_, .i32⟩
  | 53 => ⟨S1700000, .i32⟩
  | 54 => ⟨S1700000, .i32⟩
  | 55 => ⟨S1700000, .i32⟩
  | 56 => ⟨S1700000x1, .i32⟩
  | 57 => ⟨S1700000x64, .f32⟩
  | 58 => ⟨S1700000x1, .f32⟩
  | 59 => ⟨S1700000x64, .f32⟩
  | 60 => ⟨S1700000x64, .f32⟩
  | 61 => ⟨S_, .f32⟩
  | 62 => ⟨S100000x64, .f32⟩
  | 63 => ⟨S1700000x1, .i32⟩
  | 64 => ⟨S100000x64, .f32⟩
  | 65 => ⟨S1x64, .f32⟩
  | 66 => ⟨S100000x64, .f32⟩
  | 67 => ⟨S100000x64, .f32⟩
  | 68 => ⟨S_, .f32⟩
  | 69 => ⟨S100000x64, .f32⟩
  | 70 => ⟨S100000x64, .f32⟩
  | 71 => ⟨S100000, .i32⟩
  | 72 => ⟨S1x1600000, .i32⟩
  | 73 => ⟨S1600000, .i32⟩
  | 74 => ⟨S1700000, .i32⟩
  | 75 => ⟨S1x1600000, .i32⟩
  | 76 => ⟨S1600000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .i1⟩
  | 87 => ⟨S100000, .f32⟩
  | 88 => ⟨S_, .f32⟩
  | 89 => ⟨S_, .f32⟩
  | 90 => ⟨S100000, .f32⟩
  | 91 => ⟨S100000, .f32⟩
  | 92 => ⟨S_, .i32⟩
  | 93 => ⟨S1700000, .i32⟩
  | 94 => ⟨S1700000, .i1⟩
  | 95 => ⟨S_, .i32⟩
  | 96 => ⟨S1700000, .i32⟩
  | 97 => ⟨S1700000, .i32⟩
  | 98 => ⟨S1700000, .i32⟩
  | 99 => ⟨S1700000x1, .i32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S100000x128, .f32⟩
  | 112 => ⟨S_, .i32⟩
  | 113 => ⟨S1700000, .i32⟩
  | 114 => ⟨S1700000, .i1⟩
  | 115 => ⟨S_, .i32⟩
  | 116 => ⟨S1700000, .i32⟩
  | 117 => ⟨S1700000, .i32⟩
  | 118 => ⟨S1700000, .i32⟩
  | 119 => ⟨S1700000x1, .i32⟩
  | 120 => ⟨S1700000x128, .f32⟩
  | 121 => ⟨S1700000x1, .f32⟩
  | 122 => ⟨S1700000x128, .f32⟩
  | 123 => ⟨S1700000x128, .f32⟩
  | 124 => ⟨S_, .f32⟩
  | 125 => ⟨S100000x128, .f32⟩
  | 126 => ⟨S1700000x1, .i32⟩
  | 127 => ⟨S100000x128, .f32⟩
  | _ => ⟨S100000x128, .f32⟩

abbrev hbmTy0_1 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S100000, .i32⟩
  | 7 => ⟨S1x1600000, .i32⟩
  | 8 => ⟨S1600000, .i32⟩
  | 9 => ⟨S1700000, .i32⟩
  | 10 => ⟨S1x1600000, .i32⟩
  | 11 => ⟨S1600000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S_, .f32⟩
  | 25 => ⟨S100000, .f32⟩
  | 26 => ⟨S100000, .f32⟩
  | 27 => ⟨S_, .i32⟩
  | 28 => ⟨S1700000, .i32⟩
  | 29 => ⟨S1700000, .i1⟩
  | 30 => ⟨S_, .i32⟩
  | 31 => ⟨S1700000, .i32⟩
  | 32 => ⟨S1700000, .i32⟩
  | 33 => ⟨S1700000, .i32⟩
  | 34 => ⟨S1700000x1, .i32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000, .f32⟩
  | 45 => ⟨S1700000, .f32⟩
  | 46 => ⟨S100000x64, .f32⟩
  | 47 => ⟨S_, .i32⟩
  | 48 => ⟨S1700000, .i32⟩
  | 49 => ⟨S1700000, .i1⟩
  | 50 => ⟨S_, .i32⟩
  | 51 => ⟨S1700000, .i32⟩
  | 52 => ⟨S1700000, .i32⟩
  | 53 => ⟨S1700000, .i32⟩
  | 54 => ⟨S1700000x1, .i32⟩
  | 55 => ⟨S1700000x64, .f32⟩
  | 56 => ⟨S1700000x1, .f32⟩
  | 57 => ⟨S1700000x64, .f32⟩
  | 58 => ⟨S1700000x64, .f32⟩
  | 59 => ⟨S_, .f32⟩
  | 60 => ⟨S100000x64, .f32⟩
  | 61 => ⟨S1700000x1, .i32⟩
  | 62 => ⟨S100000x64, .f32⟩
  | 63 => ⟨S1x64, .f32⟩
  | 64 => ⟨S100000x64, .f32⟩
  | 65 => ⟨S100000x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_9 : Ref sig .tc := ⟨.hbm, 78, rfl⟩
abbrev main_v55 : Ref sig .tc := ⟨.hbm, 79, rfl⟩
abbrev main_cst_10 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_12 : Ref sig .tc := ⟨.hbm, 88, rfl⟩
abbrev main_call2_v0 : Ref sig .tc := ⟨.hbm, 89, rfl⟩
abbrev main_call2_v1 : Ref sig .tc := ⟨.hbm, 90, rfl⟩
abbrev main_v62 : Ref sig .tc := ⟨.hbm, 91, rfl⟩
abbrev main_c_13 : Ref sig .tc := ⟨.hbm, 92, rfl⟩
abbrev main_v63 : Ref sig .tc := ⟨.hbm, 93, rfl⟩
abbrev main_v64 : Ref sig .tc := ⟨.hbm, 94, rfl⟩
abbrev main_c_14 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_c_17 : Ref sig .tc := ⟨.hbm, 112, rfl⟩
abbrev main_v79 : Ref sig .tc := ⟨.hbm, 113, rfl⟩
abbrev main_v80 : Ref sig .tc := ⟨.hbm, 114, rfl⟩
abbrev main_c_18 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_19 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_call3_cst : Ref sig .tc := ⟨.hbm, 131, rfl⟩
abbrev main_call3_v0 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_cst_20 : Ref sig .tc := ⟨.hbm, 141, rfl⟩
abbrev main_v103 : Ref sig .tc := ⟨.hbm, 142, rfl⟩
abbrev main_cst_21 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_cst_22 : Ref sig .tc := ⟨.hbm, 147, rfl⟩
abbrev main_v107 : Ref sig .tc := ⟨.hbm, 148, rfl⟩
abbrev main_v108 : Ref sig .tc := ⟨.hbm, 149, rfl⟩
abbrev main_v109 : Ref sig .tc := ⟨.hbm, 150, rfl⟩
abbrev main_cst_23 : Ref sig .tc := ⟨.hbm, 151, rfl⟩
abbrev main_call4_v0 : Ref sig .tc := ⟨.hbm, 152, rfl⟩
abbrev main_call4_v1 : Ref sig .tc := ⟨.hbm, 153, rfl⟩
abbrev main_v110 : Ref sig .tc := ⟨.hbm, 154, rfl⟩
abbrev main_c_24 : Ref sig .tc := ⟨.hbm, 155, rfl⟩
abbrev main_v111 : Ref sig .tc := ⟨.hbm, 156, rfl⟩
abbrev main_v112 : Ref sig .tc := ⟨.hbm, 157, rfl⟩
abbrev main_c_25 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_c_26 : Ref sig .tc := ⟨.hbm, 164, rfl⟩
abbrev main_v118 : Ref sig .tc := ⟨.hbm, 165, rfl⟩
abbrev main_v119 : Ref sig .tc := ⟨.hbm, 166, rfl⟩
abbrev main_c_27 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_v126 : Ref sig .tc := ⟨.hbm, 174, rfl⟩
abbrev main_c_28 : Ref sig .tc := ⟨.hbm, 175, rfl⟩
abbrev main_v127 : Ref sig .tc := ⟨.hbm, 176, rfl⟩
abbrev main_v128 : Ref sig .tc := ⟨.hbm, 177, rfl⟩
abbrev main_c_29 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_cst_30 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x64_S100000x64_1_0_0_1_n_n_wf : DotDims.WF S100000x128 S128x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x128_S100000x128_1_0_0_1_n_n_wf : DotDims.WF S100000x64 S64x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.KernelRun.lean ====
/-
  The idealized kernel's run, read at every buffer.

  The program is nine stretches in a row: three stretches of whole-array operations, the first matrix-product region,
  a stretch, the second region, a stretch, the third region, and a last stretch.  The contents of every buffer at
  each boundary are a fold from the launch memory (`W0 … W9`): a stretch of whole-array operations rewrites the
  buffers its operations write, a region rewrites its output array with what its grid points wrote back and leaves
  every other buffer.  Every weakly fair execution terminates, and the final memory holds, at every buffer that is
  not scoped to a region, the last fold `W9`.  The frame statement reads this at the argument buffers only; here it is
  kept for every such buffer, so that the result buffer can be read as well.
-/
import proofs.«121696_j77163382440130_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, and every buffer not scoped to a region ends at the
    last fold of the boundary contents. -/
theorem run_read : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W9 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c b hb => h c _ (mem_uc b hb))

end Cert.KernelIdeal.Hand

end
-- ==== Proof.LibPlainMatmul.lean ====
/-
  A plain matrix product read at coordinates.

  For the plain contraction `[M, K] × [K, N] → [M, N]` (the left operand contracted on its second axis, the right on
  its first, no batch axis), accumulated into the zero matrix, the entry `(r, c)` of the result is
  `Σ_k lhs (r, k) · rhs (k, c)` on the extended reals, at any extents: the left operand is read on row `r`, the
  right on column `c`, and the one contraction coordinate `k` runs over `Fin K`.
-/
import Idealize.ShloMosaic.Lib.ValueIdx
import Idealize.ShloMosaic.PureOps.Ideal.Laws

namespace Cert.PlainMatmul

open Idealize.ShloMosaic Idealize.ShloMosaic.ValueIdx

variable {M K N : ℕ}

/-- The left operand's row coordinate is the result's row coordinate. -/
theorem lhs_row (j : (⟨2, ![M, N]⟩ : Shape).Idx) (q : (DotDims.plain M K N).contr.Idx) :
    ((DotDims.plain M K N).lhsIdx j q (0 : Fin (⟨2, ![M, K]⟩ : Shape).rank)).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from
      List.mem_singleton.mpr rfl)]
  rfl

/-- The right operand's column coordinate is the result's column coordinate. -/
theorem rhs_col (j : (⟨2, ![M, N]⟩ : Shape).Idx) (q : (DotDims.plain M K N).contr.Idx) :
    ((DotDims.plain M K N).rhsIdx j q (1 : Fin (⟨2, ![K, N]⟩ : Shape).rank)).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from
      List.mem_singleton.mpr rfl)]
  rfl

/-- The plain product into the zero matrix, at `(r, c)`: the sum over `k` of `lhs (r, k) · rhs (k, c)`. -/
theorem plain_apply {φ₁ φ₂ : FTy} (lhs : FVec Ideal ⟨2, ![M, K]⟩ φ₁) (rhs : FVec Ideal ⟨2, ![K, N]⟩ φ₂)
    (r : Fin M) (c : Fin N) :
    FloatOps.matmul (DotDims.plain M K N) none lhs rhs (constant ⟨2, ![M, N]⟩ .f32 0x00000000#32) (ix2 r c)
      = ∑ k : Fin K, lhs (ix2 r k) * rhs (ix2 k c) := by
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r c) ((contrEquiv1 (DotDims.plain M K N) K rfl rfl).symm k) = ix2 r k :=
    funext fun a => Fin.ext (by
      match a with
      | ⟨0, _⟩ => exact lhs_row _ _
      | ⟨1, _⟩ => exact ((DotDims.plain M K N).lhsIdx_val_of_single rfl _ _).trans hk)
  have er : (DotDims.plain M K N).rhsIdx (ix2 r c) ((contrEquiv1 (DotDims.plain M K N) K rfl rfl).symm k) = ix2 k c :=
    funext fun a => Fin.ext (by
      match a with
      | ⟨0, _⟩ => exact ((DotDims.plain M K N).rhsIdx_val_of_single rfl _ _).trans hk
      | ⟨1, _⟩ => exact rhs_col _ _)
  rw [el, er]

end Cert.PlainMatmul
-- ==== Proof.LibRowBlockMatmul.lean ====
/-
  A block of rows of a plain matrix product.

  For the plain contraction `[M, K] × [K, N] → [M, N]` on the extended reals, the host's product (no accumulator)
  and the matrix unit's product into the zero matrix are one function, and both read at `(r, c)` as
  `Σ_k lhs (r, k) · rhs (k, c)`. Hence a product computed on a BLOCK OF ROWS of the left operand — a `[Mb, K]` matrix
  whose row `p` is row `r` of the whole `[Mt, K]` matrix — has, at `(p, c)`, the entry `(r, c)` of the whole product:
  a row of the product depends on that row of the left operand only. All at any extents, and whatever the float
  formats of the four matrices (on the extended reals a change of format is the identity).
-/
import Idealize.ShloMosaic.Lib.ValueIdx
import Idealize.ShloMosaic.PureOps.Ideal.Laws
import proofs.«121696_j77163382440130_1_alg».proof.Proof.LibPlainMatmul

namespace Cert.RowBlockMatmul

open Idealize.ShloMosaic Idealize.ShloMosaic.ValueIdx

/-- The host's product is the matrix unit's product into the zero matrix, for any dimension numbers. -/
theorem dotGeneral_eq_matmul_zero {sl sr so : Shape} {φ₁ φ₂ : FTy} (d : DotDims sl sr so)
    (prec : Option ContractPrecision) (sched : HostSchedule) (lhs : FVec Ideal sl φ₁) (rhs : FVec Ideal sr φ₂) :
    FloatOps.dotGeneral d prec sched lhs rhs = FloatOps.matmul d prec lhs rhs (constant so .f32 0x00000000#32) := by
  funext j
  rw [Ideal.dotGeneral_apply, Ideal.matmul_constant_zero_apply]

variable {M K N : ℕ}

/-- The host's plain product at `(r, c)`: the sum over `k` of `lhs (r, k) · rhs (k, c)`. -/
theorem plainDot_apply {φ₁ φ₂ : FTy} (sched : HostSchedule) (lhs : FVec Ideal ⟨2, ![M, K]⟩ φ₁)
    (rhs : FVec Ideal ⟨2, ![K, N]⟩ φ₂) (r : Fin M) (c : Fin N) :
    FloatOps.dotGeneral (DotDims.plain M K N) none sched lhs rhs (ix2 r c)
      = ∑ k : Fin K, lhs (ix2 r k) * rhs (ix2 k c) := by
  rw [dotGeneral_eq_matmul_zero]
  exact Cert.PlainMatmul.plain_apply lhs rhs r c

/-- A block of rows: if row `p` of `Xb` is row `r` of `X`, and column `c` of `Wb` is column `c` of `W`, the matrix
    unit's product of the blocks at `(p, c)` is the host's product of the whole matrices at `(r, c)`. -/
theorem rowBlock_apply {Mb Mt : ℕ} {φ₁ φ₂ ψ₁ ψ₂ : FTy} (sched : HostSchedule)
    (X : FVec Ideal ⟨2, ![Mt, K]⟩ ψ₁) (W : FVec Ideal ⟨2, ![K, N]⟩ ψ₂)
    (Xb : FVec Ideal ⟨2, ![Mb, K]⟩ φ₁) (Wb : FVec Ideal ⟨2, ![K, N]⟩ φ₂) (p : Fin Mb) (c : Fin N) (r : Fin Mt)
    (hX : ∀ k : Fin K, Xb (ix2 p k) = X (ix2 r k)) (hW : ∀ k : Fin K, Wb (ix2 k c) = W (ix2 k c)) :
    FloatOps.matmul (DotDims.plain Mb K N) none Xb Wb (constant ⟨2, ![Mb, N]⟩ .f32 0x00000000#32) (ix2 p c)
      = FloatOps.dotGeneral (DotDims.plain Mt K N) none sched X W (ix2 r c) := by
  rw [Cert.PlainMatmul.plain_apply, plainDot_apply]
  exact Finset.sum_congr rfl fun k _ => by rw [hX k, hW k]

end Cert.RowBlockMatmul
-- ==== Proof.Region0.lean ====
/-
  The first matrix-product region as one whole-array function.

  The region's grid has 20 points.  At point `t` the body reads rows `5000 t … 5000 t + 4999` of the left matrix
  (`[100000, 128]`) and the whole right matrix (`[128, 64]`), multiplies them into a zero accumulator, and writes the
  `[5000, 64]` product back to the same rows of the output.  Row `r` of a product depends on row `r` of the left
  matrix only, so what point `t` writes back is rows `5000 t …` of the whole product, and the 20 blocks of rows tile
  the output: after the region the output array is the whole product of the two arrays as the region found them.
-/
import proofs.«121696_j77163382440130_1_alg».proof.Proof.Gen.KernelIdeal.Frame
import proofs.«121696_j77163382440130_1_alg».proof.Proof.LibRowBlockMatmul
import Idealize.ShloMosaic.Lib.Pipeline.Value
import Idealize.ShloMosaic.Lib.ValueIdx
import Idealize.ShloMosaic.PureOps.Ideal.Laws

set_option maxRecDepth 16384

noncomputable section

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The whole product of the two arrays the region reads, as it finds them. -/
def prod (c : Dev nD) : Buf (Elt Ideal) ((c : Thread nD τ).loc main_v30) :=
  (Host.dotGeneral (F := Ideal) (φ₁ := .f32) (φ₂ := .f32) (DotDims.plain 100000 128 64) none
    (V c main_arg0 : FVec Ideal ⟨2, ![100000, 128]⟩ .f32) (V c main_arg2 : FVec Ideal ⟨2, ![128, 64]⟩ .f32) : FVec Ideal ⟨2, ![100000, 64]⟩ .f32)

/-- One entry of a point's product: row `p` of the block is row `r` of the whole left matrix. -/
theorem pay_at (x0 : Vec Ideal S5000x128 .f32) (x1 : Vec Ideal S128x64 .f32)
    (X : FVec Ideal ⟨2, ![100000, 128]⟩ .f32) (W : FVec Ideal ⟨2, ![128, 64]⟩ .f32)
    (p : Fin 5000) (q : Fin 64) (r : Fin 100000)
    (hX : ∀ k : Fin 128, x0 (ix2 p k) = X (ix2 r k)) (hW : ∀ k : Fin 128, x1 (ix2 k q) = W (ix2 k q)) :
    k0_pay1 (F := Ideal) x0 x1 (ix2 p q) = Host.dotGeneral (φ₁ := .f32) (φ₂ := .f32) (DotDims.plain 100000 128 64) none X W (ix2 r q) :=
  Cert.RowBlockMatmul.rowBlock_apply (Mb := 5000) (Mt := 100000) (K := 128) (N := 64) .single X W _ _ p q r hX hW

/-- The same at an index of the block and the index of the output it is written to: row `5000 t + p`, the same column. -/
theorem block_entry (x0 : Vec Ideal S5000x128 .f32) (x1 : Vec Ideal S128x64 .f32)
    (X : FVec Ideal ⟨2, ![100000, 128]⟩ .f32) (W : FVec Ideal ⟨2, ![128, 64]⟩ .f32)
    (tv : Nat) (htv : tv < 20) (j : S5000x64.Idx) (i : S100000x64.Idx)
    (hi0 : (i 0).val = tv * 5000 + (j 0).val) (hi1 : (i 1).val = (j 1).val)
    (hX : ∀ (y : S5000x128.Idx) (z : S100000x128.Idx), (z 0).val = tv * 5000 + (y 0).val → (z 1).val = (y 1).val → x0 y = X z)
    (hW : ∀ y : S128x64.Idx, x1 y = W y) :
    k0_pay1 (F := Ideal) x0 x1 j = Host.dotGeneral (φ₁ := .f32) (φ₂ := .f32) (DotDims.plain 100000 128 64) none X W i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  exact pay_at x0 x1 X W p q' r (fun k => hX (ix2 p k) (ix2 r k) hi0 rfl) (fun k => hW _)

/-- The block indices over the grid: the left matrix and the output move down one block of rows per point, the right
    matrix stays. -/
theorem idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The left matrix's block at point `t`, read at `(p, k)`, is the array at `(5000 t + p, k)`. -/
theorem lhs_at (c : Dev nD) (t : Fin cfg0.N) (y : S5000x128.Idx) (z : S100000x128.Idx)
    (h0 : (z 0).val = t.val * 5000 + (y 0).val) (h1 : (z 1).val = (y 1).val) :
    (iblk0 V c 0 t : Vec Ideal S5000x128 .f32) y = (V c main_arg0 : S100000x128.Idx → Elt Ideal .f32) z := by
  obtain ⟨e00, e01, -, -, -, -⟩ := idx t
  unfold iblk0
  rw [View.read_apply]
  show V c main_arg0 _ = V c main_arg0 _
  congr 1
  funext a
  apply Fin.ext
  match a with
  | ⟨0, _⟩ => show win0_0.index t 0 * 5000 + 1 * (y 0).val = (z 0).val; rw [e00, h0]; omega
  | ⟨1, _⟩ => show win0_0.index t 1 * 128 + 1 * (y 1).val = (z 1).val; rw [e01, h1]; omega

/-- The right matrix's block at every point is the whole array. -/
theorem rhs_at (c : Dev nD) (t : Fin cfg0.N) (y : S128x64.Idx) :
    (iblk0 V c 1 t : Vec Ideal S128x64 .f32) y = (V c main_arg2 : S128x64.Idx → Elt Ideal .f32) y := by
  obtain ⟨-, -, e10, e11, -, -⟩ := idx t
  unfold iblk0
  rw [View.read_apply]
  show V c main_arg2 _ = V c main_arg2 _
  congr 1
  funext a
  apply Fin.ext
  match a with
  | ⟨0, _⟩ => show win0_1.index t 0 * 128 + 1 * (y 0).val = (y 0).val; rw [e10]; omega
  | ⟨1, _⟩ => show win0_1.index t 1 * 64 + 1 * (y 1).val = (y 1).val; rw [e11]; omega

/-- What point `t` writes back is its block of rows of the whole product. -/
theorem flushed_eq (c : Dev nD) (t : Fin cfg0.N) (hf : (cfg0.win 2).flush t = true) :
    (dat0 V c).flushed 2 t = ((cfg0.win 2).blk t).view.read (Elt Ideal) (prod V c) := by
  show (cfg0.win 2).cut (grid0.coords t) ((dat0 V c).after 2 t) = _
  rw [after0_2]
  unfold out0_2
  rw [View.canon_unit_zero hz]
  simp only [View.ld_unit_zero (S := S5000x128) hz, View.ld_unit_zero (S := S128x64) hz]
  obtain ⟨-, -, -, -, e20, e21⟩ := idx t
  funext j
  have ht : t.val < 20 := by have := t.isLt; have h2 : cfg0.N = 20 := N_0; omega
  show k0_pay1 (F := Ideal) (iblk0 V c 0 t) (iblk0 V c 1 t) j = prod V c (((cfg0.win 2).blk t).view.emb j)
  exact block_entry (iblk0 V c 0 t) (iblk0 V c 1 t) (V c main_arg0) (V c main_arg2) t.val ht j (((cfg0.win 2).blk t).view.emb j)
    (by show win0_2.index t 0 * 5000 + 1 * (j 0).val = t.val * 5000 + (j 0).val; rw [e20]; omega)
    (by show win0_2.index t 1 * 64 + 1 * (j 1).val = (j 1).val; rw [e21]; omega)
    (fun y z h0 h1 => lhs_at V c t y z h0 h1) (fun y => rhs_at V c t y)

/-- An index of the output is in point `t`'s block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v30).slice (win0_2.rect t)).set ↔ _
  rw [View.set_slice_whole, Rect.mem_set_unit]
  exact Iff.rfl

/-- Every row of the output is in the block of the point that is its quotient by the block's height. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  refine ⟨⟨(i 0).val / 5000, by rw [hN]; omega⟩, flush0_2 _, ?_⟩
  rw [mem_blk]
  obtain ⟨-, -, -, -, e20, e21⟩ := idx ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e20]; dsimp only; omega
  | ⟨1, _⟩ =>
    show win0_2.index _ (1 : Fin 2) * 64 ≤ (i 1).val ∧ (i 1).val < win0_2.index _ (1 : Fin 2) * 64 + 64
    rw [e21]; omega

/-- After the region its output array is the whole product. -/
theorem final (c : Dev nD) : (dat0 V c).arrAt 2 cfg0.N = prod V c :=
  (dat0 V c).arrAt_eq_of_cover 2 (prod V c) (flushed_eq V c) cover

end Cert.KernelIdeal.Region0

end
-- ==== Proof.Region1.lean ====
/-
  A bias-and-maximum matrix-product region as one whole-array function.

  The region's grid has 20 points.  At point `t` the body reads rows `5000 t … 5000 t + 4999` of the feature matrix
  (`[100000, 64]`), the one-row bias (`[1, 64]`) and the whole weight matrix (`[64, 128]`); it adds the bias row to every
  row of its block, takes the maximum with zero, multiplies the result by the weights into a zero accumulator, and
  writes the `[5000, 128]` product back to the same rows of the output.  Adding a row and taking a maximum act entry by
  entry, and row `r` of a product depends on row `r` of its left factor only: what point `t` writes back is rows
  `5000 t …` of the product of the WHOLE biased-and-clamped feature matrix with the weights, and the 20 blocks of rows
  tile the output.
-/
import proofs.«121696_j77163382440130_1_alg».proof.Proof.Gen.KernelIdeal.Frame
import proofs.«121696_j77163382440130_1_alg».proof.Proof.LibRowBlockMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The one-row bias repeated down the rows, added to a feature matrix, and the maximum with zero taken. -/
def clamp (a : FVec Ideal ⟨2, ![100000, 64]⟩ .f32) (b : FVec Ideal ⟨2, ![1, 64]⟩ .f32) : FVec Ideal ⟨2, ![100000, 64]⟩ .f32 :=
  maximumf (addf a (broadcastInDim ⟨2, ![100000, 64]⟩ ![0, 1] (by decide) b))
    (broadcastInDim ⟨2, ![100000, 64]⟩ ![] (by decide) (constant ⟨0, ![]⟩ .f32 0x00000000#32))

/-- Entry `(r, k)` of the clamped matrix: the feature plus the bias's entry `k`, or zero if that is larger. -/
theorem clamp_apply (a : FVec Ideal ⟨2, ![100000, 64]⟩ .f32) (b : FVec Ideal ⟨2, ![1, 64]⟩ .f32) (r : Fin 100000) (k : Fin 64) :
    clamp a b (ix2 r k)
      = FloatOps.maximumf (FloatOps.addf (a (ix2 r k)) (b (ix2 (0 : Fin 1) k))) (FloatOps.ofBits .f32 0x00000000#32) := by
  unfold clamp
  show FloatOps.maximumf (FloatOps.addf (a (ix2 r k)) (broadcastInDim ⟨2, ![100000, 64]⟩ ![0, 1] _ b (ix2 r k))) _ = _
  rw [broadcastInDim_apply (![0, 1] : Fin 2 → Fin 2) _ b (ix2 r k) (ix2 (0 : Fin 1) k) (fun ax => by
    match ax with
    | ⟨0, _⟩ => rfl
    | ⟨1, _⟩ => rfl)]
  rfl

/-- The product of the clamped feature matrix with the weights, of the arrays as the region finds them. -/
def prod (c : Dev nD) : Buf (Elt Ideal) ((c : Thread nD τ).loc main_v45) :=
  (Host.dotGeneral (F := Ideal) (φ₁ := .f32) (φ₂ := .f32) (DotDims.plain 100000 64 128) none
    (clamp (V c main_v43 : FVec Ideal ⟨2, ![100000, 64]⟩ .f32) (V c main_v44 : FVec Ideal ⟨2, ![1, 64]⟩ .f32))
    (V c main_arg4 : FVec Ideal ⟨2, ![64, 128]⟩ .f32) : FVec Ideal ⟨2, ![100000, 128]⟩ .f32)

/-- One entry of a point's product: row `p` of the block, biased and clamped, is row `r` of the whole clamped matrix. -/
theorem pay_at (x0 : Vec Ideal S5000x64 .f32) (x1 : Vec Ideal S1x64 .f32) (x2 : Vec Ideal S64x128 .f32)
    (A : FVec Ideal ⟨2, ![100000, 64]⟩ .f32) (W : FVec Ideal ⟨2, ![64, 128]⟩ .f32)
    (p : Fin 5000) (q : Fin 128) (r : Fin 100000)
    (hA : ∀ k : Fin 64, FloatOps.maximumf (FloatOps.addf (x0 (ix2 p k)) (x1 (ix2 (0 : Fin 1) k))) (FloatOps.ofBits .f32 0x00000000#32) = A (ix2 r k))
    (hW : ∀ k : Fin 64, x2 (ix2 k q) = W (ix2 k q)) :
    k1_pay1 (F := Ideal) x0 x1 x2 (ix2 p q) = Host.dotGeneral (φ₁ := .f32) (φ₂ := .f32) (DotDims.plain 100000 64 128) none A W (ix2 r q) := by
  unfold k1_pay1
  refine Cert.RowBlockMatmul.rowBlock_apply (Mb := 5000) (Mt := 100000) (K := 64) (N := 128) .single A W _ _ p q r (fun k => ?_) hW
  rw [← hA k, shapeCast_self, shapeCast_self]
  exact congrArg (fun z => FloatOps.maximumf (FloatOps.addf (x0 (ix2 p k)) z) (FloatOps.ofBits (F := Ideal) .f32 0x00000000#32))
    (broadcastTo_1b_ab_apply x1 _ p k)

/-- The same at an index of the block and the index of the output it is written to: row `5000 t + p`, the same column. -/
theorem block_entry (x0 : Vec Ideal S5000x64 .f32) (x1 : Vec Ideal S1x64 .f32) (x2 : Vec Ideal S64x128 .f32)
    (a : FVec Ideal ⟨2, ![100000, 64]⟩ .f32) (b : FVec Ideal ⟨2, ![1, 64]⟩ .f32) (W : FVec Ideal ⟨2, ![64, 128]⟩ .f32)
    (tv : Nat) (htv : tv < 20) (j : S5000x128.Idx) (i : S100000x128.Idx)
    (hi0 : (i 0).val = tv * 5000 + (j 0).val) (hi1 : (i 1).val = (j 1).val)
    (hX : ∀ (y : S5000x64.Idx) (z : S100000x64.Idx), (z 0).val = tv * 5000 + (y 0).val → (z 1).val = (y 1).val → x0 y = a z)
    (hB : ∀ y : S1x64.Idx, x1 y = b y) (hW : ∀ y : S64x128.Idx, x2 y = W y) :
    k1_pay1 (F := Ideal) x0 x1 x2 j = Host.dotGeneral (φ₁ := .f32) (φ₂ := .f32) (DotDims.plain 100000 64 128) none (clamp a b) W i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  obtain rfl : q' = q := Fin.ext hi1
  refine pay_at x0 x1 x2 (clamp a b) W p q' r (fun k => ?_) (fun k => hW _)
  rw [clamp_apply, hX (ix2 p k) (ix2 r k) hi0 rfl, hB]

/-- The block indices over the grid: the features and the output move down one block of rows per point, the bias
    and the weights stay. -/
theorem idx : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The feature block at point `t`, read at `(p, k)`, is the array at `(5000 t + p, k)`. -/
theorem lhs_at (c : Dev nD) (t : Fin cfg1.N) (y : S5000x64.Idx) (z : S100000x64.Idx)
    (h0 : (z 0).val = t.val * 5000 + (y 0).val) (h1 : (z 1).val = (y 1).val) :
    (iblk1 V c 0 t : Vec Ideal S5000x64 .f32) y = (V c main_v43 : S100000x64.Idx → Elt Ideal .f32) z := by
  obtain ⟨e00, e01, -, -, -, -, -, -⟩ := idx t
  unfold iblk1
  rw [View.read_apply]
  show V c main_v43 _ = V c main_v43 _
  congr 1
  funext a
  apply Fin.ext
  match a with
  | ⟨0, _⟩ => show win1_0.index t 0 * 5000 + 1 * (y 0).val = (z 0).val; rw [e00, h0]; omega
  | ⟨1, _⟩ => show win1_0.index t 1 * 64 + 1 * (y 1).val = (z 1).val; rw [e01, h1]; omega

/-- The bias block at every point is the whole one-row array. -/
theorem bias_at (c : Dev nD) (t : Fin cfg1.N) (y : S1x64.Idx) :
    (iblk1 V c 1 t : Vec Ideal S1x64 .f32) y = (V c main_v44 : S1x64.Idx → Elt Ideal .f32) y := by
  obtain ⟨-, -, e10, e11, -, -, -, -⟩ := idx t
  unfold iblk1
  rw [View.read_apply]
  show V c main_v44 _ = V c main_v44 _
  congr 1
  funext a
  apply Fin.ext
  match a with
  | ⟨0, _⟩ => show win1_1.index t 0 * 1 + 1 * (y 0).val = (y 0).val; rw [e10]; omega
  | ⟨1, _⟩ => show win1_1.index t 1 * 64 + 1 * (y 1).val = (y 1).val; rw [e11]; omega

/-- The weight block at every point is the whole array. -/
theorem rhs_at (c : Dev nD) (t : Fin cfg1.N) (y : S64x128.Idx) :
    (iblk1 V c 2 t : Vec Ideal S64x128 .f32) y = (V c main_arg4 : S64x128.Idx → Elt Ideal .f32) y := by
  obtain ⟨-, -, -, -, e20, e21, -, -⟩ := idx t
  unfold iblk1
  rw [View.read_apply]
  show V c main_arg4 _ = V c main_arg4 _
  congr 1
  funext a
  apply Fin.ext
  match a with
  | ⟨0, _⟩ => show win1_2.index t 0 * 64 + 1 * (y 0).val = (y 0).val; rw [e20]; omega
  | ⟨1, _⟩ => show win1_2.index t 1 * 128 + 1 * (y 1).val = (y 1).val; rw [e21]; omega

/-- What point `t` writes back is its block of rows of the whole product. -/
theorem flushed_eq (c : Dev nD) (t : Fin cfg1.N) (hf : (cfg1.win 3).flush t = true) :
    (dat1 V c).flushed 3 t = ((cfg1.win 3).blk t).view.read (Elt Ideal) (prod V c) := by
  show (cfg1.win 3).cut (grid1.coords t) ((dat1 V c).after 3 t) = _
  rw [after1_3]
  unfold out1_3
  rw [View.canon_unit_zero hz]
  simp only [View.ld_unit_zero (S := S5000x64) hz, View.ld_unit_zero (S := S1x64) hz, View.ld_unit_zero (S := S64x128) hz]
  obtain ⟨-, -, -, -, -, -, e30, e31⟩ := idx t
  funext j
  have ht : t.val < 20 := by have := t.isLt; have h2 : cfg1.N = 20 := N_1; omega
  show k1_pay1 (F := Ideal) (iblk1 V c 0 t) (iblk1 V c 1 t) (iblk1 V c 2 t) j = prod V c (((cfg1.win 3).blk t).view.emb j)
  exact block_entry (iblk1 V c 0 t) (iblk1 V c 1 t) (iblk1 V c 2 t) (V c main_v43) (V c main_v44) (V c main_arg4) t.val ht j (((cfg1.win 3).blk t).view.emb j)
    (by show win1_3.index t 0 * 5000 + 1 * (j 0).val = t.val * 5000 + (j 0).val; rw [e30]; omega)
    (by show win1_3.index t 1 * 128 + 1 * (j 1).val = (j 1).val; rw [e31]; omega)
    (fun y z h0 h1 => lhs_at V c t y z h0 h1) (fun y => bias_at V c t y) (fun y => rhs_at V c t y)

/-- An index of the output is in point `t`'s block iff each coordinate is in the block's range on its axis. -/
theorem mem_blk (t : Fin cfg1.N) (i : S100000x128.Idx) :
    i ∈ ((cfg1.win 3).blk t).view.set ↔ ∀ a : Fin 2, win1_3.index t a * S5000x128.size a ≤ (i a).val ∧ (i a).val < win1_3.index t a * S5000x128.size a + S5000x128.size a := by
  show i ∈ ((View.whole main_v45).slice (win1_3.rect t)).set ↔ _
  rw [View.set_slice_whole, Rect.mem_set_unit]
  exact Iff.rfl

/-- Every row of the output is in the block of the point that is its quotient by the block's height. -/
theorem cover (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 20 := N_1
  refine ⟨⟨(i 0).val / 5000, by rw [hN]; omega⟩, flush1_3 _, ?_⟩
  rw [mem_blk]
  obtain ⟨-, -, -, -, -, -, e30, e31⟩ := idx ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e30]; dsimp only; omega
  | ⟨1, _⟩ =>
    show win1_3.index _ (1 : Fin 2) * 128 ≤ (i 1).val ∧ (i 1).val < win1_3.index _ (1 : Fin 2) * 128 + 128
    rw [e31]; omega

/-- After the region its output array is the product of the clamped feature matrix with the weights. -/
theorem final (c : Dev nD) : (dat1 V c).arrAt 3 cfg1.N = prod V c :=
  (dat1 V c).arrAt_eq_of_cover 3 (prod V c) (flushed_eq V c) cover

end Cert.KernelIdeal.Region1

end
-- ==== Proof.Region2.lean ====
/-
  A bias-and-maximum matrix-product region as one whole-array function.

  The region's grid has 20 points.  At point `t` the body reads rows `5000 t … 5000 t + 4999` of the feature matrix
  (`[100000, 128]`), the one-row bias (`[1, 128]`) and the whole weight matrix (`[128, 64]`); it adds the bias row to every
  row of its block, takes the maximum with zero, multiplies the result by the weights into a zero accumulator, and
  writes the `[5000, 64]` product back to the same rows of the output.  Adding a row and taking a maximum act entry by
  entry, and row `r` of a product depends on row `r` of its left factor only: what point `t` writes back is rows
  `5000 t …` of the product of the WHOLE biased-and-clamped feature matrix with the weights, and the 20 blocks of rows
  tile the output.
-/
import proofs.«121696_j77163382440130_1_alg».proof.Proof.Gen.KernelIdeal.Frame
import proofs.«121696_j77163382440130_1_alg».proof.Proof.LibRowBlockMatmul
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The one-row bias repeated down the rows, added to a feature matrix, and the maximum with zero taken. -/
def clamp (a : FVec Ideal ⟨2, ![100000, 128]⟩ .f32) (b : FVec Ideal ⟨2, ![1, 128]⟩ .f32) : FVec Ideal ⟨2, ![100000, 128]⟩ .f32 :=
  maximumf (addf a (broadcastInDim ⟨2, ![100000, 128]⟩ ![0, 1] (by decide) b))
    (broadcastInDim ⟨2, ![100000, 128]⟩ ![] (by decide) (constant ⟨0, ![]⟩ .f32 0x00000000#32))

/-- Entry `(r, k)` of the clamped matrix: the feature plus the bias's entry `k`, or zero if that is larger. -/
theorem clamp_apply (a : FVec Ideal ⟨2, ![100000, 128]⟩ .f32) (b : FVec Ideal ⟨2, ![1, 128]⟩ .f32) (r : Fin 100000) (k : Fin 128) :
    clamp a b (ix2 r k)
      = FloatOps.maximumf (FloatOps.addf (a (ix2 r k)) (b (ix2 (0 : Fin 1) k))) (FloatOps.ofBits .f32 0x00000000#32) := by
  unfold clamp
  show FloatOps.maximumf (FloatOps.addf (a (ix2 r k)) (broadcastInDim ⟨2, ![100000, 128]⟩ ![0, 1] _ b (ix2 r k))) _ = _
  rw [broadcastInDim_apply (![0, 1] : Fin 2 → Fin 2) _ b (ix2 r k) (ix2 (0 : Fin 1) k) (fun ax => by
    match ax with
    | ⟨0, _⟩ => rfl
    | ⟨1, _⟩ => rfl)]
  rfl

/-- The product of the clamped feature matrix with the weights, of the arrays as the region finds them. -/
def prod (c : Dev nD) : Buf (Elt Ideal) ((c : Thread nD τ).loc main_v60) :=
  (Host.dotGeneral (F := Ideal) (φ₁ := .f32) (φ₂ := .f32) (DotDims.plain 100000 128 64) none
    (clamp (V c main_v58 : FVec Ideal ⟨2, ![100000, 128]⟩ .f32) (V c main_v59 : FVec Ideal ⟨2, ![1, 128]⟩ .f32))
    (V c main_arg6 : FVec Ideal ⟨2, ![128, 64]⟩ .f32) : FVec Ideal ⟨2, ![100000, 64]⟩ .f32)

/-- One entry of a point's product: row `p` of the block, biased and clamped, is row `r` of the whole clamped matrix. -/
theorem pay_at (x0 : Vec Ideal S5000x128 .f32) (x1 : Vec Ideal S1x128 .f32) (x2 : Vec Ideal S128x64 .f32)
    (A : FVec Ideal ⟨2, ![100000, 128]⟩ .f32) (W : FVec Ideal ⟨2, ![128, 64]⟩ .f32)
    (p : Fin 5000) (q : Fin 64) (r : Fin 100000)
    (hA : ∀ k : Fin 128, FloatOps.maximumf (FloatOps.addf (x0 (ix2 p k)) (x1 (ix2 (0 : Fin 1) k))) (FloatOps.ofBits .f32 0x00000000#32) = A (ix2 r k))
    (hW : ∀ k : Fin 128, x2 (ix2 k q) = W (ix2 k q)) :
    k2_pay1 (F := Ideal) x0 x1 x2 (ix2 p q) = Host.dotGeneral (φ₁ := .f32) (φ₂ := .f32) (DotDims.plain 100000 128 64) none A W (ix2 r q) := by
  unfold k2_pay1
  refine Cert.RowBlockMatmul.rowBlock_apply (Mb := 5000) (Mt := 100000) (K := 128) (N := 64) .single A W _ _ p q r (fun k => ?_) hW
  rw [← hA k, shapeCast_self, shapeCast_self]
  exact congrArg (fun z => FloatOps.maximumf (FloatOps.addf (x0 (ix2 p k)) z) (FloatOps.ofBits (F := Ideal) .f32 0x00000000#32))
    (broadcastTo_1b_ab_apply x1 _ p k)

/-- The same at an index of the block and the index of the output it is written to: row `5000 t + p`, the same column. -/
theorem block_entry (x0 : Vec Ideal S5000x128 .f32) (x1 : Vec Ideal S1x128 .f32) (x2 : Vec Ideal S128x64 .f32)
    (a : FVec Ideal ⟨2, ![100000, 128]⟩ .f32) (b : FVec Ideal ⟨2, ![1, 128]⟩ .f32) (W : FVec Ideal ⟨2, ![128, 64]⟩ .f32)
    (tv : Nat) (htv : tv < 20) (j : S5000x64.Idx) (i : S100000x64.Idx)
    (hi0 : (i 0).val = tv * 5000 + (j 0).val) (hi1 : (i 1).val = (j 1).val)
    (hX : ∀ (y : S5000x128.Idx) (z : S100000x128.Idx), (z 0).val = tv * 5000 + (y 0).val → (z 1).val = (y 1).val → x0 y = a z)
    (hB : ∀ y : S1x128.Idx, x1 y = b y) (hW : ∀ y : S128x64.Idx, x2 y = W y) :
    k2_pay1 (F := Ideal) x0 x1 x2 j = Host.dotGeneral (φ₁ := .f32) (φ₂ := .f32) (DotDims.plain 100000 128 64) none (clamp a b) W i := by
  obtain ⟨p, q, rfl⟩ : ∃ (p : Fin 5000) (q : Fin 64), j = ix2 p q := ⟨j 0, j 1, eq_ix2 j⟩
  obtain ⟨r, q', rfl⟩ : ∃ (r : Fin 100000) (q' : Fin 64), i = ix2 r q' := ⟨i 0, i 1, eq_ix2 i⟩
  obtain rfl : q' = q := Fin.ext hi1
  refine pay_at x0 x1 x2 (clamp a b) W p q' r (fun k => ?_) (fun k => hW _)
  rw [clamp_apply, hX (ix2 p k) (ix2 r k) hi0 rfl, hB]

/-- The block indices over the grid: the features and the output move down one block of rows per point, the bias
    and the weights stay. -/
theorem idx : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The feature block at point `t`, read at `(p, k)`, is the array at `(5000 t + p, k)`. -/
theorem lhs_at (c : Dev nD) (t : Fin cfg2.N) (y : S5000x128.Idx) (z : S100000x128.Idx)
    (h0 : (z 0).val = t.val * 5000 + (y 0).val) (h1 : (z 1).val = (y 1).val) :
    (iblk2 V c 0 t : Vec Ideal S5000x128 .f32) y = (V c main_v58 : S100000x128.Idx → Elt Ideal .f32) z := by
  obtain ⟨e00, e01, -, -, -, -, -, -⟩ := idx t
  unfold iblk2
  rw [View.read_apply]
  show V c main_v58 _ = V c main_v58 _
  congr 1
  funext a
  apply Fin.ext
  match a with
  | ⟨0, _⟩ => show win2_0.index t 0 * 5000 + 1 * (y 0).val = (z 0).val; rw [e00, h0]; omega
  | ⟨1, _⟩ => show win2_0.index t 1 * 128 + 1 * (y 1).val = (z 1).val; rw [e01, h1]; omega

/-- The bias block at every point is the whole one-row array. -/
theorem bias_at (c : Dev nD) (t : Fin cfg2.N) (y : S1x128.Idx) :
    (iblk2 V c 1 t : Vec Ideal S1x128 .f32) y = (V c main_v59 : S1x128.Idx → Elt Ideal .f32) y := by
  obtain ⟨-, -, e10, e11, -, -, -, -⟩ := idx t
  unfold iblk2
  rw [View.read_apply]
  show V c main_v59 _ = V c main_v59 _
  congr 1
  funext a
  apply Fin.ext
  match a with
  | ⟨0, _⟩ => show win2_1.index t 0 * 1 + 1 * (y 0).val = (y 0).val; rw [e10]; omega
  | ⟨1, _⟩ => show win2_1.index t 1 * 128 + 1 * (y 1).val = (y 1).val; rw [e11]; omega

/-- The weight block at every point is the whole array. -/
theorem rhs_at (c : Dev nD) (t : Fin cfg2.N) (y : S128x64.Idx) :
    (iblk2 V c 2 t : Vec Ideal S128x64 .f32) y = (V c main_arg6 : S128x64.Idx → Elt Ideal .f32) y := by
  obtain ⟨-, -, -, -, e20, e21, -, -⟩ := idx t
  unfold iblk2
  rw [View.read_apply]
  show V c main_arg6 _ = V c main_arg6 _
  congr 1
  funext a
  apply Fin.ext
  match a with
  | ⟨0, _⟩ => show win2_2.index t 0 * 128 + 1 * (y 0).val = (y 0).val; rw [e20]; omega
  | ⟨1, _⟩ => show win2_2.index t 1 * 64 + 1 * (y 1).val = (y 1).val; rw [e21]; omega

/-- What point `t` writes back is its block of rows of the whole product. -/
theorem flushed_eq (c : Dev nD) (t : Fin cfg2.N) (hf : (cfg2.win 3).flush t = true) :
    (dat2 V c).flushed 3 t = ((cfg2.win 3).blk t).view.read (Elt Ideal) (prod V c) := by
  show (cfg2.win 3).cut (grid2.coords t) ((dat2 V c).after 3 t) = _
  rw [after2_3]
  unfold out2_3
  rw [View.canon_unit_zero hz]
  simp only [View.ld_unit_zero (S := S5000x128) hz, View.ld_unit_zero (S := S1x128) hz, View.ld_unit_zero (S := S128x64) hz]
  obtain ⟨-, -, -, -, -, -, e30, e31⟩ := idx t
  funext j
  have ht : t.val < 20 := by have := t.isLt; have h2 : cfg2.N = 20 := N_2; omega
  show k2_pay1 (F := Ideal) (iblk2 V c 0 t) (iblk2 V c 1 t) (iblk2 V c 2 t) j = prod V c (((cfg2.win 3).blk t).view.emb j)
  exact block_entry (iblk2 V c 0 t) (iblk2 V c 1 t) (iblk2 V c 2 t) (V c main_v58) (V c main_v59) (V c main_arg6) t.val ht j (((cfg2.win 3).blk t).view.emb j)
    (by show win2_3.index t 0 * 5000 + 1 * (j 0).val = t.val * 5000 + (j 0).val; rw [e30]; omega)
    (by show win2_3.index t 1 * 64 + 1 * (j 1).val = (j 1).val; rw [e31]; omega)
    (fun y z h0 h1 => lhs_at V c t y z h0 h1) (fun y => bias_at V c t y) (fun y => rhs_at V c t y)

/-- An index of the output is in point `t`'s block iff each coordinate is in the block's range on its axis. -/
theorem mem_blk (t : Fin cfg2.N) (i : S100000x64.Idx) :
    i ∈ ((cfg2.win 3).blk t).view.set ↔ ∀ a : Fin 2, win2_3.index t a * S5000x64.size a ≤ (i a).val ∧ (i a).val < win2_3.index t a * S5000x64.size a + S5000x64.size a := by
  show i ∈ ((View.whole main_v60).slice (win2_3.rect t)).set ↔ _
  rw [View.set_slice_whole, Rect.mem_set_unit]
  exact Iff.rfl

/-- Every row of the output is in the block of the point that is its quotient by the block's height. -/
theorem cover (i : S100000x64.Idx) : ∃ t : Fin cfg2.N, (cfg2.win 3).flush t = true ∧ i ∈ ((cfg2.win 3).blk t).view.set := by
  have hi0 : (i 0).val < 100000 := (i 0).isLt
  have hi1 : (i 1).val < 64 := (i 1).isLt
  have hN : cfg2.N = 20 := N_2
  refine ⟨⟨(i 0).val / 5000, by rw [hN]; omega⟩, flush2_3 _, ?_⟩
  rw [mem_blk]
  obtain ⟨-, -, -, -, -, -, e30, e31⟩ := idx ⟨(i 0).val / 5000, by rw [hN]; omega⟩
  intro a
  match a with
  | ⟨0, _⟩ =>
    show win2_3.index _ (0 : Fin 2) * 5000 ≤ (i 0).val ∧ (i 0).val < win2_3.index _ (0 : Fin 2) * 5000 + 5000
    rw [e30]; dsimp only; omega
  | ⟨1, _⟩ =>
    show win2_3.index _ (1 : Fin 2) * 64 ≤ (i 1).val ∧ (i 1).val < win2_3.index _ (1 : Fin 2) * 64 + 64
    rw [e31]; omega

/-- After the region its output array is the product of the clamped feature matrix with the weights. -/
theorem final (c : Dev nD) : (dat2 V c).arrAt 3 cfg2.N = prod V c :=
  (dat2 V c).arrAt_eq_of_cover 3 (prod V c) (flushed_eq V c) cover

end Cert.KernelIdeal.Region2

end
-- ==== Proof.Spec.lean ====
/-
  A three-layer graph convolution as one function of its arguments.

  Notation.  `e` is the `[2, E]` array of edges, `E = 1600000`, over `N = 100000` nodes.  `srcIdx e` and `dstIdx e`
  are rows 0 and 1 of `e`, each followed by `0, 1, …, N − 1` (a self-loop per node): `M = E + N` entries.  `wrap i`
  adds `N` to the negative entries of an index array.  `degree e` counts, per node, the entries of `dstIdx e` that
  name it (a sum of ones scattered into zeros); `dinv e` is `degree^(-1/2)` where the degree is positive and `0`
  elsewhere; `norm e` is, per entry, `dinv` at its source times `dinv` at its destination.

  `agg h e` sends a node-feature matrix `h` to the matrix whose row `n` is the sum, over the entries whose
  destination is `n`, of `norm` times row `source` of `h`: a gather of rows, a product with the per-entry factor
  repeated across the row, and a sum of the products scattered into zeros.  `biasRelu a b` adds the bias row `b` to
  every row of `a` and takes the maximum with zero.  One layer is `agg (h · W) e` followed by the bias, and the
  network is three layers with `biasRelu` between them.
-/
import proofs.«121696_j77163382440130_1_alg».proof.ReferenceIdeal

noncomputable section

namespace Cert.Gcn

open Idealize.ShloMosaic Cert.ReferenceIdeal Cert.ReferenceIdeal.Facts₀ Cert.ReferenceIdeal.Facts

variable {F : FTy → Type} [FloatOps F] [Cert.ReferenceIdeal.Facts]

/-- Row 0 of the edge array, then every node once: the source of each of the `M` entries. -/
def srcIdx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- Row 1 of the edge array, then every node once: the destination of each of the `M` entries. -/
def dstIdx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A negative index counts from the end: `N` is added to it. -/
def wrap (i : (⟨S1700000, .i32⟩ : BufTy).Contents (Elt F)) : (⟨S1700000, .i32⟩ : BufTy).Contents (Elt F) :=
  select (cmpi .slt i (broadcastInDim S1700000 ![] bcast_S_S1700000 (constantI S_ 32 0#32))) (addi i (broadcastInDim S1700000 ![] bcast_S_S1700000 (constantI S_ 32 100000#32))) i

/-- An index array as a column of one-entry index vectors. -/
def col (i : (⟨S1700000, .i32⟩ : BufTy).Contents (Elt F)) : (⟨S1700000x1, .i32⟩ : BufTy).Contents (Elt F) :=
  broadcastInDim S1700000x1 ![0] bcast_S1700000_S1700000x1_0 i

/-- The number of entries whose destination is each node: ones summed into zeros. -/
def degree (e : (⟨S2x1600000, .i32⟩ : BufTy).Contents (Elt F)) : (⟨S100000, .f32⟩ : BufTy).Contents (Elt F) :=
  Host.scatterAdd scatter_S100000_S1700000x1_S1700000_n_0_0_1 (broadcastInDim S100000 ![] bcast_S_S100000 (constant S_ .f32 0x00000000#32)) (col (dstIdx e)) (broadcastInDim S1700000 ![] bcast_S_S1700000 (constant S_ .f32 0x3F800000#32))

/-- `degree^(-1/2)` where the degree is positive, zero elsewhere. -/
def dinv (e : (⟨S2x1600000, .i32⟩ : BufTy).Contents (Elt F)) : (⟨S100000, .f32⟩ : BufTy).Contents (Elt F) :=
  select (cmpf .ogt (degree e) (broadcastInDim S100000 ![] bcast_S_S100000 (constant S_ .f32 0x00000000#32))) (Host.rsqrt (degree e)) (broadcastInDim S100000 ![] bcast_S_S100000 (id (constant S_ .f32 0x00000000#32)))

/-- Per entry: `dinv` at its source times `dinv` at its destination. -/
def norm (e : (⟨S2x1600000, .i32⟩ : BufTy).Contents (Elt F)) : (⟨S1700000, .f32⟩ : BufTy).Contents (Elt F) :=
  mulf (Host.gather gather_S100000_S1700000x1_S1700000_n_0_n_n_0_1_1 (dinv e) (col (wrap (srcIdx e)))) (Host.gather gather_S100000_S1700000x1_S1700000_n_0_n_n_0_1_1 (dinv e) (col (wrap (dstIdx e))))

/-- The normalised neighbourhood sum of a 64-column feature matrix: row `n` of the result is the sum, over the
    entries whose destination is `n`, of `norm` times the source's row of `h`. -/
def agg64 (h : (⟨S100000x64, .f32⟩ : BufTy).Contents (Elt F)) (e : (⟨S2x1600000, .i32⟩ : BufTy).Contents (Elt F)) : (⟨S100000x64, .f32⟩ : BufTy).Contents (Elt F) :=
  Host.scatterAdd scatter_S100000x64_S1700000x1_S1700000x64_1_0_0_1 (broadcastInDim S100000x64 ![] bcast_S_S100000x64 (constant S_ .f32 0x00000000#32)) (col (dstIdx e)) (mulf (Host.gather gather_S100000x64_S1700000x1_S1700000x64_1_0_n_n_0_1_164 h (col (wrap (srcIdx e)))) (broadcastInDim S1700000x64 ![0, 1] bcast_S1700000x1_S1700000x64_0_1 (broadcastInDim S1700000x1 ![0] bcast_S1700000_S1700000x1_0 (norm e))))

/-- The same sum for a 128-column feature matrix. -/
def agg128 (h : (⟨S100000x128, .f32⟩ : BufTy).Contents (Elt F)) (e : (⟨S2x1600000, .i32⟩ : BufTy).Contents (Elt F)) : (⟨S100000x128, .f32⟩ : BufTy).Contents (Elt F) :=
  Host.scatterAdd scatter_S100000x128_S1700000x1_S1700000x128_1_0_0_1 (broadcastInDim S100000x128 ![] bcast_S_S100000x128 (constant S_ .f32 0x00000000#32)) (col (dstIdx e)) (mulf (Host.gather gather_S100000x128_S1700000x1_S1700000x128_1_0_n_n_0_1_1128 h (col (wrap (srcIdx e)))) (broadcastInDim S1700000x128 ![0, 1] bcast_S1700000x1_S1700000x128_0_1 (broadcastInDim S1700000x1 ![0] bcast_S1700000_S1700000x1_0 (norm e))))

/-- A 64-entry bias row repeated down the `N` rows. -/
def biasRows64 (b : (⟨S64, .f32⟩ : BufTy).Contents (Elt F)) : (⟨S100000x64, .f32⟩ : BufTy).Contents (Elt F) :=
  broadcastInDim S100000x64 ![0, 1] bcast_S1x64_S100000x64_0_1 (broadcastInDim S1x64 ![1] bcast_S64_S1x64_1 b)

/-- A 128-entry bias row repeated down the `N` rows. -/
def biasRows128 (b : (⟨S128, .f32⟩ : BufTy).Contents (Elt F)) : (⟨S100000x128, .f32⟩ : BufTy).Contents (Elt F) :=
  broadcastInDim S100000x128 ![0, 1] bcast_S1x128_S100000x128_0_1 (broadcastInDim S1x128 ![1] bcast_S128_S1x128_1 b)

/-- Bias, then the maximum with zero, 64 columns. -/
def biasRelu64 (a : (⟨S100000x64, .f32⟩ : BufTy).Contents (Elt F)) (b : (⟨S64, .f32⟩ : BufTy).Contents (Elt F)) : (⟨S100000x64, .f32⟩ : BufTy).Contents (Elt F) :=
  maximumf (addf a (biasRows64 b)) (broadcastInDim S100000x64 ![] bcast_S_S100000x64 (constant S_ .f32 0x00000000#32))

/-- Bias, then the maximum with zero, 128 columns. -/
def biasRelu128 (a : (⟨S100000x128, .f32⟩ : BufTy).Contents (Elt F)) (b : (⟨S128, .f32⟩ : BufTy).Contents (Elt F)) : (⟨S100000x128, .f32⟩ : BufTy).Contents (Elt F) :=
  maximumf (addf a (biasRows128 b)) (broadcastInDim S100000x128 ![] bcast_S_S100000x128 (constant S_ .f32 0x00000000#32))

/-- The first layer's features before its bias: the neighbourhood sum of `x · W1`. -/
def layer1 (x : (⟨S100000x128, .f32⟩ : BufTy).Contents (Elt F)) (e : (⟨S2x1600000, .i32⟩ : BufTy).Contents (Elt F)) (W1 : (⟨S128x64, .f32⟩ : BufTy).Contents (Elt F)) : (⟨S100000x64, .f32⟩ : BufTy).Contents (Elt F) :=
  agg64 (Host.dotGeneral dot_S100000x128_S128x64_S100000x64_1_0_0_1_n_n none x W1) e

/-- The second layer's features before its bias. -/
def layer2 (x : (⟨S100000x128, .f32⟩ : BufTy).Contents (Elt F)) (e : (⟨S2x1600000, .i32⟩ : BufTy).Contents (Elt F)) (W1 : (⟨S128x64, .f32⟩ : BufTy).Contents (Elt F)) (b1 : (⟨S64, .f32⟩ : BufTy).Contents (Elt F)) (W2 : (⟨S64x128, .f32⟩ : BufTy).Contents (Elt F)) : (⟨S100000x128, .f32⟩ : BufTy).Contents (Elt F) :=
  agg128 (Host.dotGeneral dot_S100000x64_S64x128_S100000x128_1_0_0_1_n_n none (biasRelu64 (layer1 x e W1) b1) W2) e

/-- The third layer's features before its bias. -/
def layer3 (x : (⟨S100000x128, .f32⟩ : BufTy).Contents (Elt F)) (e : (⟨S2x1600000, .i32⟩ : BufTy).Contents (Elt F)) (W1 : (⟨S128x64, .f32⟩ : BufTy).Contents (Elt F)) (b1 : (⟨S64, .f32⟩ : BufTy).Contents (Elt F)) (W2 : (⟨S64x128, .f32⟩ : BufTy).Contents (Elt F)) (b2 : (⟨S128, .f32⟩ : BufTy).Contents (Elt F)) (W3 : (⟨S128x64, .f32⟩ : BufTy).Contents (Elt F)) : (⟨S100000x64, .f32⟩ : BufTy).Contents (Elt F) :=
  agg64 (Host.dotGeneral dot_S100000x128_S128x64_S100000x64_1_0_0_1_n_n none (biasRelu128 (layer2 x e W1 b1 W2) b2) W3) e

/-- The network: three layers, the last one's bias added and no maximum after it. -/
def gcn (x : (⟨S100000x128, .f32⟩ : BufTy).Contents (Elt F)) (e : (⟨S2x1600000, .i32⟩ : BufTy).Contents (Elt F)) (W1 : (⟨S128x64, .f32⟩ : BufTy).Contents (Elt F)) (b1 : (⟨S64, .f32⟩ : BufTy).Contents (Elt F)) (W2 : (⟨S64x128, .f32⟩ : BufTy).Contents (Elt F)) (b2 : (⟨S128, .f32⟩ : BufTy).Contents (Elt F)) (W3 : (⟨S128x64, .f32⟩ : BufTy).Contents (Elt F)) (b3 : (⟨S64, .f32⟩ : BufTy).Contents (Elt F)) : (⟨S100000x64, .f32⟩ : BufTy).Contents (Elt F) :=
  addf (layer3 x e W1 b1 W2 b2 W3) (biasRows64 b3)

end Cert.Gcn

end
-- ==== Proof.LibRowVector.lean ====
/-
  A vector seen as a one-row matrix, two ways.

  A vector v of extent n becomes the 1×n matrix whose only row is v either by a reshape (the n entries in row-major
  order are the same n entries) or by a broadcast that places the vector's axis on the matrix's second axis. Both read
  entry (0, k) of the matrix as v k, so the two matrices are equal — at any extent n other than 1 (at n = 1 the
  broadcast's rule for an axis of extent one applies instead, and is not needed here). Stated over any entry type.
-/
import Idealize.ShloMosaic.Lib.Pipeline.Value

namespace Cert.RowVector

open Idealize.ShloMosaic

/-- The reshape of a vector of extent n to the 1×n matrix is the broadcast of the vector along the matrix's second
    axis: both have the vector as their only row. -/
theorem shapeCast_eq_broadcastInDim {α : Type} {n : ℕ} (hn : n ≠ 1) (v : (⟨1, ![n]⟩ : Shape).Idx → α)
    (hc : (⟨1, ![n]⟩ : Shape).ShapeCasts ⟨2, ![1, n]⟩)
    (hb : (⟨1, ![n]⟩ : Shape).BroadcastsInDim ⟨2, ![1, n]⟩ (![1] : Fin 1 → Fin 2)) :
    shapeCast ⟨2, ![1, n]⟩ v hc = broadcastInDim ⟨2, ![1, n]⟩ ![1] hb v := by
  funext j
  refine (shapeCast_addUnit_apply ![n] v hc j).trans ?_
  exact (broadcastInDim_apply (![1] : Fin 1 → Fin 2) hb v j (fun a => j a.succ) (fun a => by
    match a with
    | ⟨0, _⟩ => show (j 1).val = if n = 1 then 0 else (j 1).val; rw [if_neg hn])).symm

end Cert.RowVector
-- ==== Proof.LibTypedRefs.lean ====
/-
  Typed references: a round trip through a buffer's own type is the identity.

  A value of a module-local function lives in a buffer through a typed reference, which carries the equation between the
  buffer's declared type and the value's type; writing transports the value along that equation and reading transports
  it back. Reading what was just written gives the value back, and writing what was just read gives the contents back.
-/
import Idealize.ShloMosaic.Lib.StableHlo

namespace TypedRefs

open Idealize.ShloMosaic Idealize.ShloMosaic.StableHlo

variable {sig : RefSig} {T : BufTy} {Val : EltTy → Type}

/-- Reading back what was written through the same typed reference is the value. -/
theorem ofBuf_toBuf (x : TRef sig T) (v : T.Contents Val) : x.ofBuf (x.toBuf v) = v := by
  obtain ⟨r, h, _, _⟩ := x
  subst h
  rfl

/-- Writing back what was read through the same typed reference is the contents. -/
theorem toBuf_ofBuf (x : TRef sig T) (v : x.ref.ty.Contents Val) : x.toBuf (x.ofBuf v) = v := by
  obtain ⟨r, h, _, _⟩ := x
  subst h
  rfl

end TypedRefs
-- ==== Proof.KernelValue.lean ====
/-
  The idealized kernel's result as the three-layer graph convolution of its arguments.

  The run's last fold `W9`, read at the result buffer, is walked back to the launch memory one stretch at a time.
  The first three stretches compute, from the edge array alone, the source and destination lists and the per-entry
  factors; no later stretch or region writes those buffers, so every later stretch finds them unchanged.  Each
  matrix-product region leaves in its output array the whole product of what it found in its operand arrays
  (a feature matrix, for the second and third region first biased and clamped at zero, times a weight matrix), and
  leaves every other buffer.  The stretch after a region gathers rows of that product, scales them, and sums them
  per destination.  Composing the nine steps gives the function `Cert.Gcn.gcn` of the eight arguments.
-/
import proofs.«121696_j77163382440130_1_alg».proof.Proof.KernelRun
import proofs.«121696_j77163382440130_1_alg».proof.Proof.Region0
import proofs.«121696_j77163382440130_1_alg».proof.Proof.Region1
import proofs.«121696_j77163382440130_1_alg».proof.Proof.Region2
import proofs.«121696_j77163382440130_1_alg».proof.Proof.Spec
import proofs.«121696_j77163382440130_1_alg».proof.Proof.LibRowVector
import proofs.«121696_j77163382440130_1_alg».proof.Proof.LibTypedRefs
import proofs.«121696_j77163382440130_1_alg».proof.Proof.Gen.ReferenceIdeal
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- After an operation, the buffer it writes holds its function of its operands' contents and every other buffer holds
    what it held: applied repeatedly, also inside the pieces of a concatenation. -/
local macro "read_inner" : tactic =>
  `(tactic| repeat (first
       | rw [nullary_result] | rw [unary_result] | rw [binary_result] | rw [ternary_result] | rw [reshape_result]
       | (rw [nullary_result_ne]; rotate_left; decide)
       | (rw [unary_result_ne]; rotate_left; decide)
       | (rw [binary_result_ne]; rotate_left; decide)
       | (rw [ternary_result_ne]; rotate_left; decide)
       | (rw [reshape_result_ne]; rotate_left; decide)))
/-- The contents of a buffer after a stretch of operations, as the operations' composed function of the contents the
    stretch started from (the contents at the previous region's exit, or the launch memory). -/
local macro "read_back" : tactic =>
  `(tactic| (dsimp only [W9, W7, W5, W3, W2, W1, W0, hostOps0, hostOps0_1, hostOps0_2, hostOps1, hostOps2, hostOps3]
             after_results_simp
             all_goals read_inner))

/-! ## Before the first region: the arguments, the two index lists and the per-entry factors -/

theorem W3_arg0 : W3 m ρ c (Proc.devRef .tc main_arg0) = m ((c : Thread nD τ).loc main_arg0) := by read_back <;> rfl
theorem W3_arg1 : W3 m ρ c (Proc.devRef .tc main_arg1) = m ((c : Thread nD τ).loc main_arg1) := by read_back <;> rfl
theorem W3_arg2 : W3 m ρ c (Proc.devRef .tc main_arg2) = m ((c : Thread nD τ).loc main_arg2) := by read_back <;> rfl
theorem W3_arg3 : W3 m ρ c (Proc.devRef .tc main_arg3) = m ((c : Thread nD τ).loc main_arg3) := by read_back <;> rfl
theorem W3_arg4 : W3 m ρ c (Proc.devRef .tc main_arg4) = m ((c : Thread nD τ).loc main_arg4) := by read_back <;> rfl
theorem W3_arg5 : W3 m ρ c (Proc.devRef .tc main_arg5) = m ((c : Thread nD τ).loc main_arg5) := by read_back <;> rfl
theorem W3_arg6 : W3 m ρ c (Proc.devRef .tc main_arg6) = m ((c : Thread nD τ).loc main_arg6) := by read_back <;> rfl
theorem W3_arg7 : W3 m ρ c (Proc.devRef .tc main_arg7) = m ((c : Thread nD τ).loc main_arg7) := by read_back <;> rfl

/-- The source of each entry. -/
theorem W3_src : W3 m ρ c (Proc.devRef .tc main_v3) = Cert.Gcn.srcIdx (F := Ideal) (m ((c : Thread nD τ).loc main_arg1)) := by read_back <;> rfl
/-- The destination of each entry. -/
theorem W3_dst : W3 m ρ c (Proc.devRef .tc main_v6) = Cert.Gcn.dstIdx (F := Ideal) (m ((c : Thread nD τ).loc main_arg1)) := by read_back <;> rfl
/-! ### The per-entry factors, one stretch at a time

The helper that selects between the inverse square root and zero keeps its values in buffers it reaches through
references carrying each buffer's type; writing through such a reference and reading back through it are transports
along an equation between a type and itself, hence the identity. -/

theorem toBuf_v14 (h1 h2 h3) (v : (⟨S100000, .f32⟩ : BufTy).Contents (Elt Ideal)) :
    (TRef.of (T := ⟨S100000, .f32⟩) main_v14 h1 h2 h3).toBuf v = v := rfl
theorem ofBuf_v12 (h1 h2 h3) (v : (⟨S100000, .i1⟩ : BufTy).Contents (Elt Ideal)) :
    (TRef.of (T := ⟨S100000, .i1⟩) main_v12 h1 h2 h3).ofBuf v = v := rfl
theorem ofBuf_v13 (h1 h2 h3) (v : (⟨S100000, .f32⟩ : BufTy).Contents (Elt Ideal)) :
    (TRef.of (T := ⟨S100000, .f32⟩) main_v13 h1 h2 h3).ofBuf v = v := rfl
theorem ofBuf_cst2 (h1 h2 h3) (v : (⟨S_, .f32⟩ : BufTy).Contents (Elt Ideal)) :
    (TRef.of (T := ⟨S_, .f32⟩) main_cst_2 h1 h2 h3).ofBuf v = v := rfl

/-- Which nodes have a positive degree. -/
theorem W1_v12 : W1 m ρ c (Proc.devRef .tc main_v12) = cmpf .ogt (Cert.Gcn.degree (F := Ideal) (m ((c : Thread nD τ).loc main_arg1))) (broadcastInDim S100000 ![] bcast_S_S100000 (constant (F := Ideal) S_ .f32 0x00000000#32)) := by
  read_back <;> rfl
/-- The inverse square root of every degree. -/
theorem W1_v13 : W1 m ρ c (Proc.devRef .tc main_v13) = Host.rsqrt (F := Ideal) (φ := .f32) (Cert.Gcn.degree (F := Ideal) (m ((c : Thread nD τ).loc main_arg1))) := by
  read_back <;> rfl
/-- The zero the helper falls back to. -/
theorem W1_cst2 : W1 m ρ c (Proc.devRef .tc main_cst_2) = constant (F := Ideal) S_ .f32 0x00000000#32 := by
  read_back <;> rfl

/-- After the helper: the inverse square root where the degree is positive, zero elsewhere. -/
theorem W2_dinv : W2 m ρ c (Proc.devRef .tc main_v14) = Cert.Gcn.dinv (F := Ideal) (m ((c : Thread nD τ).loc main_arg1)) := by
  show StableHlo.after hostOps0_1 (W1 m ρ c) (Proc.devRef .tc main_v14) = _
  have h1 := W1_v12 m ρ c
  have h2 := W1_v13 m ρ c
  have h3 := W1_cst2 m ρ c
  generalize W1 m ρ c = V1 at h1 h2 h3 ⊢
  dsimp only [hostOps0_1]
  after_results_simp
  rw [h1, h2, h3]
  simp only [TypedRefs.ofBuf_toBuf, TypedRefs.toBuf_ofBuf, toBuf_v14, ofBuf_v12, ofBuf_v13, ofBuf_cst2]
  rfl

theorem W2_src : W2 m ρ c (Proc.devRef .tc main_v3) = Cert.Gcn.srcIdx (F := Ideal) (m ((c : Thread nD τ).loc main_arg1)) := by read_back <;> rfl
theorem W2_dst : W2 m ρ c (Proc.devRef .tc main_v6) = Cert.Gcn.dstIdx (F := Ideal) (m ((c : Thread nD τ).loc main_arg1)) := by read_back <;> rfl

/-- The factor of each entry. -/
theorem W3_norm : W3 m ρ c (Proc.devRef .tc main_v29) = Cert.Gcn.norm (F := Ideal) (m ((c : Thread nD τ).loc main_arg1)) := by
  show StableHlo.after hostOps0_2 (W2 m ρ c) (Proc.devRef .tc main_v29) = _
  have h14 := W2_dinv m ρ c
  have h3 := W2_src m ρ c
  have h6 := W2_dst m ρ c
  generalize W2 m ρ c = V2 at h14 h3 h6 ⊢
  dsimp only [hostOps0_2]
  after_results_simp
  rw [h14, h3, h6]
  rfl

/-! ## What each later stretch leaves untouched -/

theorem W5_keep_main_v3 : W5 m ρ c (Proc.devRef .tc main_v3) = W4 m ρ c (Proc.devRef .tc main_v3) := by read_back
theorem W5_keep_main_v6 : W5 m ρ c (Proc.devRef .tc main_v6) = W4 m ρ c (Proc.devRef .tc main_v6) := by read_back
theorem W5_keep_main_v29 : W5 m ρ c (Proc.devRef .tc main_v29) = W4 m ρ c (Proc.devRef .tc main_v29) := by read_back
theorem W5_keep_main_arg4 : W5 m ρ c (Proc.devRef .tc main_arg4) = W4 m ρ c (Proc.devRef .tc main_arg4) := by read_back
theorem W5_keep_main_arg5 : W5 m ρ c (Proc.devRef .tc main_arg5) = W4 m ρ c (Proc.devRef .tc main_arg5) := by read_back
theorem W5_keep_main_arg6 : W5 m ρ c (Proc.devRef .tc main_arg6) = W4 m ρ c (Proc.devRef .tc main_arg6) := by read_back
theorem W5_keep_main_arg7 : W5 m ρ c (Proc.devRef .tc main_arg7) = W4 m ρ c (Proc.devRef .tc main_arg7) := by read_back
theorem W7_keep_main_v3 : W7 m ρ c (Proc.devRef .tc main_v3) = W6 m ρ c (Proc.devRef .tc main_v3) := by read_back
theorem W7_keep_main_v6 : W7 m ρ c (Proc.devRef .tc main_v6) = W6 m ρ c (Proc.devRef .tc main_v6) := by read_back
theorem W7_keep_main_v29 : W7 m ρ c (Proc.devRef .tc main_v29) = W6 m ρ c (Proc.devRef .tc main_v29) := by read_back
theorem W7_keep_main_arg6 : W7 m ρ c (Proc.devRef .tc main_arg6) = W6 m ρ c (Proc.devRef .tc main_arg6) := by read_back
theorem W7_keep_main_arg7 : W7 m ρ c (Proc.devRef .tc main_arg7) = W6 m ρ c (Proc.devRef .tc main_arg7) := by read_back

/-! ## The index lists and the factors, and each argument, where a later step reads them -/

theorem W4_main_v3 : W4 m ρ c (Proc.devRef .tc main_v3) = Cert.Gcn.srcIdx (F := Ideal) (m ((c : Thread nD τ).loc main_arg1)) := (W4_of_ne m ρ c main_v3 (by decide)).trans (W3_src m ρ c)
theorem W6_main_v3 : W6 m ρ c (Proc.devRef .tc main_v3) = Cert.Gcn.srcIdx (F := Ideal) (m ((c : Thread nD τ).loc main_arg1)) := (W6_of_ne m ρ c main_v3 (by decide)).trans ((W5_keep_main_v3 m ρ c).trans (W4_main_v3 m ρ c))
theorem W8_main_v3 : W8 m ρ c (Proc.devRef .tc main_v3) = Cert.Gcn.srcIdx (F := Ideal) (m ((c : Thread nD τ).loc main_arg1)) := (W8_of_ne m ρ c main_v3 (by decide)).trans ((W7_keep_main_v3 m ρ c).trans (W6_main_v3 m ρ c))
theorem W4_main_v6 : W4 m ρ c (Proc.devRef .tc main_v6) = Cert.Gcn.dstIdx (F := Ideal) (m ((c : Thread nD τ).loc main_arg1)) := (W4_of_ne m ρ c main_v6 (by decide)).trans (W3_dst m ρ c)
theorem W6_main_v6 : W6 m ρ c (Proc.devRef .tc main_v6) = Cert.Gcn.dstIdx (F := Ideal) (m ((c : Thread nD τ).loc main_arg1)) := (W6_of_ne m ρ c main_v6 (by decide)).trans ((W5_keep_main_v6 m ρ c).trans (W4_main_v6 m ρ c))
theorem W8_main_v6 : W8 m ρ c (Proc.devRef .tc main_v6) = Cert.Gcn.dstIdx (F := Ideal) (m ((c : Thread nD τ).loc main_arg1)) := (W8_of_ne m ρ c main_v6 (by decide)).trans ((W7_keep_main_v6 m ρ c).trans (W6_main_v6 m ρ c))
theorem W4_main_v29 : W4 m ρ c (Proc.devRef .tc main_v29) = Cert.Gcn.norm (F := Ideal) (m ((c : Thread nD τ).loc main_arg1)) := (W4_of_ne m ρ c main_v29 (by decide)).trans (W3_norm m ρ c)
theorem W6_main_v29 : W6 m ρ c (Proc.devRef .tc main_v29) = Cert.Gcn.norm (F := Ideal) (m ((c : Thread nD τ).loc main_arg1)) := (W6_of_ne m ρ c main_v29 (by decide)).trans ((W5_keep_main_v29 m ρ c).trans (W4_main_v29 m ρ c))
theorem W8_main_v29 : W8 m ρ c (Proc.devRef .tc main_v29) = Cert.Gcn.norm (F := Ideal) (m ((c : Thread nD τ).loc main_arg1)) := (W8_of_ne m ρ c main_v29 (by decide)).trans ((W7_keep_main_v29 m ρ c).trans (W6_main_v29 m ρ c))
theorem W4_arg3 : W4 m ρ c (Proc.devRef .tc main_arg3) = m ((c : Thread nD τ).loc main_arg3) := (W4_of_ne m ρ c main_arg3 (by decide)).trans (W3_arg3 m ρ c)
theorem W5_arg4 : W5 m ρ c (Proc.devRef .tc main_arg4) = m ((c : Thread nD τ).loc main_arg4) := (W5_keep_main_arg4 m ρ c).trans ((W4_of_ne m ρ c main_arg4 (by decide)).trans (W3_arg4 m ρ c))
theorem W6_arg5 : W6 m ρ c (Proc.devRef .tc main_arg5) = m ((c : Thread nD τ).loc main_arg5) := (W6_of_ne m ρ c main_arg5 (by decide)).trans ((W5_keep_main_arg5 m ρ c).trans ((W4_of_ne m ρ c main_arg5 (by decide)).trans (W3_arg5 m ρ c)))
theorem W7_arg6 : W7 m ρ c (Proc.devRef .tc main_arg6) = m ((c : Thread nD τ).loc main_arg6) := (W7_keep_main_arg6 m ρ c).trans ((W6_of_ne m ρ c main_arg6 (by decide)).trans ((W5_keep_main_arg6 m ρ c).trans ((W4_of_ne m ρ c main_arg6 (by decide)).trans (W3_arg6 m ρ c))))
theorem W8_arg7 : W8 m ρ c (Proc.devRef .tc main_arg7) = m ((c : Thread nD τ).loc main_arg7) := (W8_of_ne m ρ c main_arg7 (by decide)).trans ((W7_keep_main_arg7 m ρ c).trans ((W6_of_ne m ρ c main_arg7 (by decide)).trans ((W5_keep_main_arg7 m ρ c).trans ((W4_of_ne m ρ c main_arg7 (by decide)).trans (W3_arg7 m ρ c)))))

/-! ## The first layer -/

/-- The first region's output: the product of the node features with the first weight matrix. -/
theorem W4_prod : W4 m ρ c (Proc.devRef .tc main_v30)
    = (Host.dotGeneral (F := Ideal) (φ₁ := .f32) (φ₂ := .f32) (DotDims.plain 100000 128 64) none
        ((m ((c : Thread nD τ).loc main_arg0)) : FVec Ideal ⟨2, ![100000, 128]⟩ .f32) ((m ((c : Thread nD τ).loc main_arg2)) : FVec Ideal ⟨2, ![128, 64]⟩ .f32) : FVec Ideal ⟨2, ![100000, 64]⟩ .f32) := by
  refine (W4_arr m ρ c 2).trans ((Cert.KernelIdeal.Region0.final (V3 m ρ) c).trans ?_)
  unfold Cert.KernelIdeal.Region0.prod
  show Host.dotGeneral (F := Ideal) (φ₁ := .f32) (φ₂ := .f32) (DotDims.plain 100000 128 64) none (W3 m ρ c (Proc.devRef .tc main_arg0)) (W3 m ρ c (Proc.devRef .tc main_arg2)) = _
  rw [W3_arg0, W3_arg2]

/-- After the stretch that follows it: the first layer's neighbourhood sums. -/
theorem W5_layer1 : W5 m ρ c (Proc.devRef .tc main_v43)
    = Cert.Gcn.layer1 (F := Ideal) (m ((c : Thread nD τ).loc main_arg0)) (m ((c : Thread nD τ).loc main_arg1)) (m ((c : Thread nD τ).loc main_arg2)) := by
  read_back
  rw [W4_main_v3, W4_main_v6, W4_main_v29, W4_prod]
  rfl

/-- The first bias as a one-row matrix. -/
theorem W5_bias1 : W5 m ρ c (Proc.devRef .tc main_v44)
    = (broadcastInDim (⟨2, ![1, 64]⟩ : Shape) ![1] Cert.ReferenceIdeal.Facts₀.bcast_S64_S1x64_1 ((m ((c : Thread nD τ).loc main_arg3)) : FVec Ideal ⟨1, ![64]⟩ .f32) : FVec Ideal ⟨2, ![1, 64]⟩ .f32) := by
  read_back
  rw [W4_arg3]
  exact Cert.RowVector.shapeCast_eq_broadcastInDim (n := 64) (by decide) _ _ _

/-! ## The second layer -/

/-- The second region's output: the clamped first layer times the second weight matrix. -/
theorem W6_prod : W6 m ρ c (Proc.devRef .tc main_v45)
    = (Host.dotGeneral (F := Ideal) (φ₁ := .f32) (φ₂ := .f32) (Cert.ReferenceIdeal.dot_S100000x64_S64x128_S100000x128_1_0_0_1_n_n) none
        (Cert.Gcn.biasRelu64 (F := Ideal) (Cert.Gcn.layer1 (F := Ideal) (m ((c : Thread nD τ).loc main_arg0)) (m ((c : Thread nD τ).loc main_arg1)) (m ((c : Thread nD τ).loc main_arg2))) (m ((c : Thread nD τ).loc main_arg3)))
        (m ((c : Thread nD τ).loc main_arg4))) := by
  refine (W6_arr m ρ c 3).trans ((Cert.KernelIdeal.Region1.final (V5 m ρ) c).trans ?_)
  unfold Cert.KernelIdeal.Region1.prod
  show Host.dotGeneral (F := Ideal) (φ₁ := .f32) (φ₂ := .f32) (DotDims.plain 100000 64 128) none (Cert.KernelIdeal.Region1.clamp (W5 m ρ c (Proc.devRef .tc main_v43)) (W5 m ρ c (Proc.devRef .tc main_v44))) (W5 m ρ c (Proc.devRef .tc main_arg4)) = _
  rw [W5_layer1, W5_bias1, W5_arg4]
  rfl

/-- After the stretch that follows it: the second layer's neighbourhood sums. -/
theorem W7_layer2 : W7 m ρ c (Proc.devRef .tc main_v58)
    = Cert.Gcn.layer2 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  read_back
  rw [W6_main_v3, W6_main_v6, W6_main_v29, W6_prod]
  rfl

/-- The second bias as a one-row matrix. -/
theorem W7_bias2 : W7 m ρ c (Proc.devRef .tc main_v59)
    = (broadcastInDim (⟨2, ![1, 128]⟩ : Shape) ![1] Cert.ReferenceIdeal.Facts₀.bcast_S128_S1x128_1 ((m ((c : Thread nD τ).loc main_arg5)) : FVec Ideal ⟨1, ![128]⟩ .f32) : FVec Ideal ⟨2, ![1, 128]⟩ .f32) := by
  read_back
  rw [W6_arg5]
  exact Cert.RowVector.shapeCast_eq_broadcastInDim (n := 128) (by decide) _ _ _

/-! ## The third layer -/

/-- The third region's output: the clamped second layer times the third weight matrix. -/
theorem W8_prod : W8 m ρ c (Proc.devRef .tc main_v60)
    = (Host.dotGeneral (F := Ideal) (φ₁ := .f32) (φ₂ := .f32) (Cert.ReferenceIdeal.dot_S100000x128_S128x64_S100000x64_1_0_0_1_n_n) none
        (Cert.Gcn.biasRelu128 (F := Ideal) (Cert.Gcn.layer2 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (m ((c : Thread nD τ).loc main_arg5)))
        (m ((c : Thread nD τ).loc main_arg6))) := by
  refine (W8_arr m ρ c 3).trans ((Cert.KernelIdeal.Region2.final (V7 m ρ) c).trans ?_)
  unfold Cert.KernelIdeal.Region2.prod
  show Host.dotGeneral (F := Ideal) (φ₁ := .f32) (φ₂ := .f32) (DotDims.plain 100000 128 64) none (Cert.KernelIdeal.Region2.clamp (W7 m ρ c (Proc.devRef .tc main_v58)) (W7 m ρ c (Proc.devRef .tc main_v59))) (W7 m ρ c (Proc.devRef .tc main_arg6)) = _
  rw [W7_layer2, W7_bias2, W7_arg6]
  rfl

/-- The result buffer after the last stretch: the network of the eight arguments. -/
theorem value : W9 m ρ c (Proc.devRef .tc main_v76)
    = Cert.Gcn.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  read_back
  rw [W8_main_v3, W8_main_v6, W8_main_v29, W8_prod, W8_arg7]
  rfl

/-! ## The run, read at the result -/

/-- Every weakly fair execution of the idealized kernel terminates with its result at the network of the arguments
    and the arguments unchanged. -/
theorem run : θ_run defs (onTc (τ := τ) (main (F := Ideal))) ⟨m, fun _ => 0, ρ⟩ fun r => ∀ c : Dev nD,
      r.2.mem ((c.tc : Thread nD τ).loc main_v76) = Cert.Gcn.gcn (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨(h c main_v76 (by decide)).trans (value m ρ c),
      (h c main_arg0 (by decide)).trans (W9_main_arg0 m ρ c),
      (h c main_arg1 (by decide)).trans (W9_main_arg1 m ρ c),
      (h c main_arg2 (by decide)).trans (W9_main_arg2 m ρ c),
      (h c main_arg3 (by decide)).trans (W9_main_arg3 m ρ c),
      (h c main_arg4 (by decide)).trans (W9_main_arg4 m ρ c),
      (h c main_arg5 (by decide)).trans (W9_main_arg5 m ρ c),
      (h c main_arg6 (by decide)).trans (W9_main_arg6 m ρ c),
      (h c main_arg7 (by decide)).trans (W9_main_arg7 m ρ c)⟩)
    (run_read m ρ)

end Cert.KernelIdeal.Hand

end
-- ==== Proof.RefRun.lean ====
/-
  The reference program's run, read back.

  The reference is a straight line of whole-array operations (the three helper functions it calls stand inline at
  their call sites).  Every weakly fair execution of it terminates; each buffer ends at what the operations, applied
  in order to the launch contents, leave there.  Read at the result buffer this is the three-layer graph convolution
  `Cert.Gcn.gcn` of the eight arguments: the reference recomputes the edge lists, the degrees and the per-entry
  factors in each layer from the same edge array, and each recomputation is the same function of that array.
-/
import proofs.«121696_j77163382440130_1_alg».proof.Proof.Gen.ReferenceIdeal
import proofs.«121696_j77163382440130_1_alg».proof.Proof.Spec
import Idealize.ShloMosaic.Lib.StableHlo.Run

noncomputable section

namespace Cert.Gcn.Ref

open Cert.ReferenceIdeal Cert.ReferenceIdeal.Gen Idealize.ShloMosaic Idealize.ShloMosaic.TcCoe Idealize.SL.Sem Idealize.ShloMosaic.StableHlo

variable {F : FTy → Type} [FloatOps F]

/-- @main's 186 operations, in order (a called function's operations stand in its call's place, spelt `TRef.…`). -/
abbrev ops : List (HloOp τ sig (Elt F)) :=
  [ nullary main_v0 (iotaInDim S100000 32 0),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    binary main_v2 main_v0 main_v3 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v4 ((extractStridedSlice S1x1600000 ![1, 0] · slices_S2x1600000_S1x1600000_1_0) : (⟨S2x1600000, .i32⟩ : BufTy).Contents (Elt F) → (⟨S1x1600000, .i32⟩ : BufTy).Contents (Elt F)),
    reshape main_v4 main_v5 rfl shapeCasts_S1x1600000_S1600000,
    binary main_v5 main_v0 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1700000 ![] bcast_S_S1700000 : (⟨S_, .i32⟩ : BufTy).Contents (Elt F) → (⟨S1700000, .i32⟩ : BufTy).Contents (Elt F)),
    binary main_v3 main_v15 main_v16 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v17 (broadcastInDim S1700000 ![] bcast_S_S1700000 : (⟨S_, .i32⟩ : BufTy).Contents (Elt F) → (⟨S1700000, .i32⟩ : BufTy).Contents (Elt F)),
    binary main_v3 main_v17 main_v18 (addi : (⟨S1700000, .i32⟩ : BufTy).Contents (Elt F) → (⟨S1700000, .i32⟩ : BufTy).Contents (Elt F) → (⟨S1700000, .i32⟩ : BufTy).Contents (Elt F)),
    ternary main_v16 main_v18 main_v3 main_v19 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v19 main_v20 (broadcastInDim S1700000x1 ![0] bcast_S1700000_S1700000x1_0 : (⟨S1700000, .i32⟩ : BufTy).Contents (Elt F) → (⟨S1700000x1, .i32⟩ : BufTy).Contents (Elt F)),
    binary main_v14 main_v20 main_v21 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v22 (broadcastInDim S1700000 ![] bcast_S_S1700000 : (⟨S_, .i32⟩ : BufTy).Contents (Elt F) → (⟨S1700000, .i32⟩ : BufTy).Contents (Elt F)),
    binary main_v6 main_v22 main_v23 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v24 (broadcastInDim S1700000 ![] bcast_S_S1700000 : (⟨S_, .i32⟩ : BufTy).Contents (Elt F) → (⟨S1700000, .i32⟩ : BufTy).Contents (Elt F)),
    binary main_v6 main_v24 main_v25 (addi : (⟨S1700000, .i32⟩ : BufTy).Contents (Elt F) → (⟨S1700000, .i32⟩ : BufTy).Contents (Elt F) → (⟨S1700000, .i32⟩ : BufTy).Contents (Elt F)),
    ternary main_v23 main_v25 main_v6 main_v26 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v26 main_v27 (broadcastInDim S1700000x1 ![0] bcast_S1700000_S1700000x1_0 : (⟨S1700000, .i32⟩ : BufTy).Contents (Elt F) → (⟨S1700000x1, .i32⟩ : BufTy).Contents (Elt F)),
    binary main_v14 main_v27 main_v28 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v21 main_v28 main_v29 (mulf : (⟨S1700000, .f32⟩ : BufTy).Contents (Elt F) → (⟨S1700000, .f32⟩ : BufTy).Contents (Elt F) → (⟨S1700000, .f32⟩ : BufTy).Contents (Elt F)),
    binary main_arg0 main_arg2 main_v30 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_6 (constantI S_ 32 0#32),
    unary main_c_6 main_v31 (broadcastInDim S1700000 ![] bcast_S_S1700000 : (⟨S_, .i32⟩ : BufTy).Contents (Elt F) → (⟨S1700000, .i32⟩ : BufTy).Contents (Elt F)),
    binary main_v3 main_v31 main_v32 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v33 (broadcastInDim S1700000 ![] bcast_S_S1700000 : (⟨S_, .i32⟩ : BufTy).Contents (Elt F) → (⟨S1700000, .i32⟩ : BufTy).Contents (Elt F)),
    binary main_v3 main_v33 main_v34 (addi : (⟨S1700000, .i32⟩ : BufTy).Contents (Elt F) → (⟨S1700000, .i32⟩ : BufTy).Contents (Elt F) → (⟨S1700000, .i32⟩ : BufTy).Contents (Elt F)),
    ternary main_v32 main_v34 main_v3 main_v35 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v35 main_v36 (broadcastInDim S1700000x1 ![0] bcast_S1700000_S1700000x1_0 : (⟨S1700000, .i32⟩ : BufTy).Contents (Elt F) → (⟨S1700000x1, .i32⟩ : BufTy).Contents (Elt F)),
    binary main_v30 main_v36 main_v37 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v29 main_v38 (broadcastInDim S1700000x1 ![0] bcast_S1700000_S1700000x1_0 : (⟨S1700000, .f32⟩ : BufTy).Contents (Elt F) → (⟨S1700000x1, .f32⟩ : BufTy).Contents (Elt F)),
    unary main_v38 main_v39 (broadcastInDim S1700000x64 ![0, 1] bcast_S1700000x1_S1700000x64_0_1 : (⟨S1700000x1, .f32⟩ : BufTy).Contents (Elt F) → (⟨S1700000x64, .f32⟩ : BufTy).Contents (Elt F)),
    binary main_v37 main_v39 main_v40 (mulf : (⟨S1700000x64, .f32⟩ : BufTy).Contents (Elt F) → (⟨S1700000x64, .f32⟩ : BufTy).Contents (Elt F) → (⟨S1700000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1700000x1 ![0] bcast_S1700000_S1700000x1_0 : (⟨S1700000, .i32⟩ : BufTy).Contents (Elt F) → (⟨S1700000x1, .i32⟩ : BufTy).Contents (Elt F)),
    ternary main_v41 main_v42 main_v40 main_v43 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg3 main_v44 (broadcastInDim S1x64 ![1] bcast_S64_S1x64_1 : (⟨S64, .f32⟩ : BufTy).Contents (Elt F) → (⟨S1x64, .f32⟩ : BufTy).Contents (Elt F)),
    unary main_v44 main_v45 (broadcastInDim S100000x64 ![0, 1] bcast_S1x64_S100000x64_0_1 : (⟨S1x64, .f32⟩ : BufTy).Contents (Elt F) → (⟨S100000x64, .f32⟩ : BufTy).Contents (Elt F)),
    binary main_v43 main_v45 main_v46 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v46) (TRef.of (T := ⟨S100000x64, .f32⟩) main_call1_v0) (TRef.of (T := ⟨S100000x64, .f32⟩) main_v47) maximumf,
    nullary main_v48 (iotaInDim S100000 32 0),
    unary main_arg1 main_v49 ((extractStridedSlice S1x1600000 ![0, 0] · slices_S2x1600000_S1x1600000_0_0) : (⟨S2x1600000, .i32⟩ : BufTy).Contents (Elt F) → (⟨S1x1600000, .i32⟩ : BufTy).Contents (Elt F)),
    reshape main_v49 main_v50 rfl shapeCasts_S1x1600000_S1600000,
    binary main_v50 main_v48 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v52 ((extractStridedSlice S1x1600000 ![1, 0] · slices_S2x1600000_S1x1600000_1_0) : (⟨S2x1600000, .i32⟩ : BufTy).Contents (Elt F) → (⟨S1x1600000, .i32⟩ : BufTy).Contents (Elt F)),
    reshape main_v52 main_v53 rfl shapeCasts_S1x1600000_S1600000,
    binary main_v53 main_v48 main_v54 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v55 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v56 (broadcastInDim S100000 ![] bcast_S_S100000 : (⟨S_, .f32⟩ : BufTy).Contents (Elt F) → (⟨S100000, .f32⟩ : BufTy).Contents (Elt F)),
    unary main_v54 main_v57 (broadcastInDim S1700000x1 ![0] bcast_S1700000_S1700000x1_0 : (⟨S1700000, .i32⟩ : BufTy).Contents (Elt F) → (⟨S1700000x1, .i32⟩ : BufTy).Contents (Elt F)),
    ternary main_v56 main_v57 main_v55 main_v58 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v59 (broadcastInDim S100000 ![] bcast_S_S100000 : (⟨S_, .f32⟩ : BufTy).Contents (Elt F) → (⟨S100000, .f32⟩ : BufTy).Contents (Elt F)),
    binary main_v58 main_v59 main_v60 (cmpf .ogt : (⟨S100000, .f32⟩ : BufTy).Contents (Elt F) → (⟨S100000, .f32⟩ : BufTy).Contents (Elt F) → (⟨S100000, .i1⟩ : BufTy).Contents (Elt F)),
    unary main_v58 main_v61 (Host.rsqrt : (⟨S100000, .f32⟩ : BufTy).Contents (Elt F) → (⟨S100000, .f32⟩ : BufTy).Contents (Elt F)),
    nullary main_cst_12 (constant S_ .f32 0x00000000#32),
    TRef.unary (TRef.of (T := ⟨S_, .f32⟩) main_cst_12) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v60) (TRef.of (T := ⟨S100000, .f32⟩) main_v61) (TRef.of (T := ⟨S100000, .f32⟩) main_call2_v1) (TRef.of (T := ⟨S100000, .f32⟩) main_v62) select,
    nullary main_c_13 (constantI S_ 32 0#32),
    unary main_c_13 main_v63 (broadcastInDim S1700000 ![] bcast_S_S1700000 : (⟨S_, .i32⟩ : BufTy).Contents (Elt F) → (⟨S1700000, .i32⟩ : BufTy).Contents (Elt F)),
    binary main_v51 main_v63 main_v64 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v65 (broadcastInDim S1700000 ![] bcast_S_S1700000 : (⟨S_, .i32⟩ : BufTy).Contents (Elt F) → (⟨S1700000, .i32⟩ : BufTy).Contents (Elt F)),
    binary main_v51 main_v65 main_v66 (addi : (⟨S1700000, .i32⟩ : BufTy).Contents (Elt F) → (⟨S1700000, .i32⟩ : BufTy).Contents (Elt F) → (⟨S1700000, .i32⟩ : BufTy).Contents (Elt F)),
    ternary main_v64 main_v66 main_v51 main_v67 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v67 main_v68 (broadcastInDim S1700000x1 ![0] bcast_S1700000_S1700000x1_0 : (⟨S1700000, .i32⟩ : BufTy).Contents (Elt F) → (⟨S1700000x1, .i32⟩ : BufTy).Contents (Elt F)),
    binary main_v62 main_v68 main_v69 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v70 (broadcastInDim S1700000 ![] bcast_S_S1700000 : (⟨S_, .i32⟩ : BufTy).Contents (Elt F) → (⟨S1700000, .i32⟩ : BufTy).Contents (Elt F)),
    binary main_v54 main_v70 main_v71 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v72 (broadcastInDim S1700000 ![] bcast_S_S1700000 : (⟨S_, .i32⟩ : BufTy).Contents (Elt F) → (⟨S1700000, .i32⟩ : BufTy).Contents (Elt F)),
    binary main_v54 main_v72 main_v73 (addi : (⟨S1700000, .i32⟩ : BufTy).Contents (Elt F) → (⟨S1700000, .i32⟩ : BufTy).Contents (Elt F) → (⟨S1700000, .i32⟩ : BufTy).Contents (Elt F)),
    ternary main_v71 main_v73 main_v54 main_v74 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v74 main_v75 (broadcastInDim S1700000x1 ![0] bcast_S1700000_S1700000x1_0 : (⟨S1700000, .i32⟩ : BufTy).Contents (Elt F) → (⟨S1700000x1, .i32⟩ : BufTy).Contents (Elt F)),
    binary main_v62 main_v75 main_v76 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v69 main_v76 main_v77 (mulf : (⟨S1700000, .f32⟩ : BufTy).Contents (Elt F) → (⟨S1700000, .f32⟩ : BufTy).Contents (Elt F) → (⟨S1700000, .f32⟩ : BufTy).Contents (Elt F)),
    binary main_v47 main_arg4 main_v78 ((fun l r => Host.dotGeneral dot_S100000x64_S64x128_S100000x128_1_0_0_1_n_n none l r) : (⟨S100000x64, .f32⟩ : BufTy).Contents (Elt F) → (⟨S64x128, .f32⟩ : BufTy).Contents (Elt F) → (⟨S100000x128, .f32⟩ : BufTy).Contents (Elt F)),
    nullary main_c_17 (constantI S_ 32 0#32),
    unary main_c_17 main_v79 (broadcastInDim S1700000 ![] bcast_S_S1700000 : (⟨S_, .i32⟩ : BufTy).Contents (Elt F) → (⟨S1700000, .i32⟩ : BufTy).Contents (Elt F)),
    binary main_v51 main_v79 main_v80 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v81 (broadcastInDim S1700000 ![] bcast_S_S1700000 : (⟨S_, .i32⟩ : BufTy).Contents (Elt F) → (⟨S1700000, .i32⟩ : BufTy).Contents (Elt F)),
    binary main_v51 main_v81 main_v82 (addi : (⟨S1700000, .i32⟩ : BufTy).Contents (Elt F) → (⟨S1700000, .i32⟩ : BufTy).Contents (Elt F) → (⟨S1700000, .i32⟩ : BufTy).Contents (Elt F)),
    ternary main_v80 main_v82 main_v51 main_v83 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v83 main_v84 (broadcastInDim S1700000x1 ![0] bcast_S1700000_S1700000x1_0 : (⟨S1700000, .i32⟩ : BufTy).Contents (Elt F) → (⟨S1700000x1, .i32⟩ : BufTy).Contents (Elt F)),
    binary main_v78 main_v84 main_v85 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v77 main_v86 (broadcastInDim S1700000x1 ![0] bcast_S1700000_S1700000x1_0 : (⟨S1700000, .f32⟩ : BufTy).Contents (Elt F) → (⟨S1700000x1, .f32⟩ : BufTy).Contents (Elt F)),
    unary main_v86 main_v87 (broadcastInDim S1700000x128 ![0, 1] bcast_S1700000x1_S1700000x128_0_1 : (⟨S1700000x1, .f32⟩ : BufTy).Contents (Elt F) → (⟨S1700000x128, .f32⟩ : BufTy).Contents (Elt F)),
    binary main_v85 main_v87 main_v88 (mulf : (⟨S1700000x128, .f32⟩ : BufTy).Contents (Elt F) → (⟨S1700000x128, .f32⟩ : BufTy).Contents (Elt F) → (⟨S1700000x128, .f32⟩ : BufTy).Contents (Elt F)),
    nullary main_cst_19 (constant S_ .f32 0x00000000#32),
    unary main_cst_19 main_v89 (broadcastInDim S100000x128 ![] bcast_S_S100000x128 : (⟨S_, .f32⟩ : BufTy).Contents (Elt F) → (⟨S100000x128, .f32⟩ : BufTy).Contents (Elt F)),
    unary main_v54 main_v90 (broadcastInDim S1700000x1 ![0] bcast_S1700000_S1700000x1_0 : (⟨S1700000, .i32⟩ : BufTy).Contents (Elt F) → (⟨S1700000x1, .i32⟩ : BufTy).Contents (Elt F)),
    ternary main_v89 main_v90 main_v88 main_v91 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)),
    unary main_arg5 main_v92 (broadcastInDim S1x128 ![1] bcast_S128_S1x128_1 : (⟨S128, .f32⟩ : BufTy).Contents (Elt F) → (⟨S1x128, .f32⟩ : BufTy).Contents (Elt F)),
    unary main_v92 main_v93 (broadcastInDim S100000x128 ![0, 1] bcast_S1x128_S100000x128_0_1 : (⟨S1x128, .f32⟩ : BufTy).Contents (Elt F) → (⟨S100000x128, .f32⟩ : BufTy).Contents (Elt F)),
    binary main_v91 main_v93 main_v94 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x128, .f32⟩) main_call3_v0) (broadcastInDim S100000x128 ![] bcast_S_S100000x128),
    TRef.binary (TRef.of (T := ⟨S100000x128, .f32⟩) main_v94) (TRef.of (T := ⟨S100000x128, .f32⟩) main_call3_v0) (TRef.of (T := ⟨S100000x128, .f32⟩) main_v95) maximumf,
    nullary main_v96 (iotaInDim S100000 32 0),
    unary main_arg1 main_v97 ((extractStridedSlice S1x1600000 ![0, 0] · slices_S2x1600000_S1x1600000_0_0) : (⟨S2x1600000, .i32⟩ : BufTy).Contents (Elt F) → (⟨S1x1600000, .i32⟩ : BufTy).Contents (Elt F)),
    reshape main_v97 main_v98 rfl shapeCasts_S1x1600000_S1600000,
    binary main_v98 main_v96 main_v99 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    unary main_arg1 main_v100 ((extractStridedSlice S1x1600000 ![1, 0] · slices_S2x1600000_S1x1600000_1_0) : (⟨S2x1600000, .i32⟩ : BufTy).Contents (Elt F) → (⟨S1x1600000, .i32⟩ : BufTy).Contents (Elt F)),
    reshape main_v100 main_v101 rfl shapeCasts_S1x1600000_S1600000,
    binary main_v101 main_v96 main_v102 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_20 (constant S_ .f32 0x3F800000#32),
    unary main_cst_20 main_v103 (broadcastInDim S1700000 ![] bcast_S_S1700000 : (⟨S_, .f32⟩ : BufTy).Contents (Elt F) → (⟨S1700000, .f32⟩ : BufTy).Contents (Elt F)),
    nullary main_cst_21 (constant S_ .f32 0x00000000#32),
    unary main_cst_21 main_v104 (broadcastInDim S100000 ![] bcast_S_S100000 : (⟨S_, .f32⟩ : BufTy).Contents (Elt F) → (⟨S100000, .f32⟩ : BufTy).Contents (Elt F)),
    unary main_v102 main_v105 (broadcastInDim S1700000x1 ![0] bcast_S1700000_S1700000x1_0 : (⟨S1700000, .i32⟩ : BufTy).Contents (Elt F) → (⟨S1700000x1, .i32⟩ : BufTy).Contents (Elt F)),
    ternary main_v104 main_v105 main_v103 main_v106 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_22 (constant S_ .f32 0x00000000#32),
    unary main_cst_22 main_v107 (broadcastInDim S100000 ![] bcast_S_S100000 : (⟨S_, .f32⟩ : BufTy).Contents (Elt F) → (⟨S100000, .f32⟩ : BufTy).Contents (Elt F)),
    binary main_v106 main_v107 main_v108 (cmpf .ogt : (⟨S100000, .f32⟩ : BufTy).Contents (Elt F) → (⟨S100000, .f32⟩ : BufTy).Contents (Elt F) → (⟨S100000, .i1⟩ : BufTy).Contents (Elt F)),
    unary main_v106 main_v109 (Host.rsqrt : (⟨S100000, .f32⟩ : BufTy).Contents (Elt F) → (⟨S100000, .f32⟩ : BufTy).Contents (Elt F)),
    nullary main_cst_23 (constant S_ .f32 0x00000000#32),
    TRef.unary (TRef.of (T := ⟨S_, .f32⟩) main_cst_23) (TRef.of (T := ⟨S_, .f32⟩) main_call4_v0) id,
    TRef.unary (TRef.of (T := ⟨S_, .f32⟩) main_call4_v0) (TRef.of (T := ⟨S100000, .f32⟩) main_call4_v1) (broadcastInDim S100000 ![] bcast_S_S100000),
    TRef.ternary (TRef.of (T := ⟨S100000, .i1⟩) main_v108) (TRef.of (T := ⟨S100000, .f32⟩) main_v109) (TRef.of (T := ⟨S100000, .f32⟩) main_call4_v1) (TRef.of (T := ⟨S100000, .f32⟩) main_v110) select,
    nullary main_c_24 (constantI S_ 32 0#32),
    unary main_c_24 main_v111 (broadcastInDim S1700000 ![] bcast_S_S1700000 : (⟨S_, .i32⟩ : BufTy).Contents (Elt F) → (⟨S1700000, .i32⟩ : BufTy).Contents (Elt F)),
    binary main_v99 main_v111 main_v112 (cmpi .slt : (⟨S1700000, .i32⟩ : BufTy).Contents (Elt F) → (⟨S1700000, .i32⟩ : BufTy).Contents (Elt F) → (⟨S1700000, .i1⟩ : BufTy).Contents (Elt F)),
    nullary main_c_25 (constantI S_ 32 100000#32),
    unary main_c_25 main_v113 (broadcastInDim S1700000 ![] bcast_S_S1700000 : (⟨S_, .i32⟩ : BufTy).Contents (Elt F) → (⟨S1700000, .i32⟩ : BufTy).Contents (Elt F)),
    binary main_v99 main_v113 main_v114 (addi : (⟨S1700000, .i32⟩ : BufTy).Contents (Elt F) → (⟨S1700000, .i32⟩ : BufTy).Contents (Elt F) → (⟨S1700000, .i32⟩ : BufTy).Contents (Elt F)),
    ternary main_v112 main_v114 main_v99 main_v115 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v115 main_v116 (broadcastInDim S1700000x1 ![0] bcast_S1700000_S1700000x1_0 : (⟨S1700000, .i32⟩ : BufTy).Contents (Elt F) → (⟨S1700000x1, .i32⟩ : BufTy).Contents (Elt F)),
    binary main_v110 main_v116 main_v117 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_26 (constantI S_ 32 0#32),
    unary main_c_26 main_v118 (broadcastInDim S1700000 ![] bcast_S_S1700000 : (⟨S_, .i32⟩ : BufTy).Contents (Elt F) → (⟨S1700000, .i32⟩ : BufTy).Contents (Elt F)),
    binary main_v102 main_v118 main_v119 (cmpi .slt : (⟨S1700000, .i32⟩ : BufTy).Contents (Elt F) → (⟨S1700000, .i32⟩ : BufTy).Contents (Elt F) → (⟨S1700000, .i1⟩ : BufTy).Contents (Elt F)),
    nullary main_c_27 (constantI S_ 32 100000#32),
    unary main_c_27 main_v120 (broadcastInDim S1700000 ![] bcast_S_S1700000 : (⟨S_, .i32⟩ : BufTy).Contents (Elt F) → (⟨S1700000, .i32⟩ : BufTy).Contents (Elt F)),
    binary main_v102 main_v120 main_v121 (addi : (⟨S1700000, .i32⟩ : BufTy).Contents (Elt F) → (⟨S1700000, .i32⟩ : BufTy).Contents (Elt F) → (⟨S1700000, .i32⟩ : BufTy).Contents (Elt F)),
    ternary main_v119 main_v121 main_v102 main_v122 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v122 main_v123 (broadcastInDim S1700000x1 ![0] bcast_S1700000_S1700000x1_0 : (⟨S1700000, .i32⟩ : BufTy).Contents (Elt F) → (⟨S1700000x1, .i32⟩ : BufTy).Contents (Elt F)),
    binary main_v110 main_v123 main_v124 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v117 main_v124 main_v125 (mulf : (⟨S1700000, .f32⟩ : BufTy).Contents (Elt F) → (⟨S1700000, .f32⟩ : BufTy).Contents (Elt F) → (⟨S1700000, .f32⟩ : BufTy).Contents (Elt F)),
    binary main_v95 main_arg6 main_v126 ((fun l r => Host.dotGeneral dot_S100000x128_S128x64_S100000x64_1_0_0_1_n_n none l r) : (⟨S100000x128, .f32⟩ : BufTy).Contents (Elt F) → (⟨S128x64, .f32⟩ : BufTy).Contents (Elt F) → (⟨S100000x64, .f32⟩ : BufTy).Contents (Elt F)),
    nullary main_c_28 (constantI S_ 32 0#32),
    unary main_c_28 main_v127 (broadcastInDim S1700000 ![] bcast_S_S1700000 : (⟨S_, .i32⟩ : BufTy).Contents (Elt F) → (⟨S1700000, .i32⟩ : BufTy).Contents (Elt F)),
    binary main_v99 main_v127 main_v128 (cmpi .slt : (⟨S1700000, .i32⟩ : BufTy).Contents (Elt F) → (⟨S1700000, .i32⟩ : BufTy).Contents (Elt F) → (⟨S1700000, .i1⟩ : BufTy).Contents (Elt F)),
    nullary main_c_29 (constantI S_ 32 100000#32),
    unary main_c_29 main_v129 (broadcastInDim S1700000 ![] bcast_S_S1700000 : (⟨S_, .i32⟩ : BufTy).Contents (Elt F) → (⟨S1700000, .i32⟩ : BufTy).Contents (Elt F)),
    binary main_v99 main_v129 main_v130 (addi : (⟨S1700000, .i32⟩ : BufTy).Contents (Elt F) → (⟨S1700000, .i32⟩ : BufTy).Contents (Elt F) → (⟨S1700000, .i32⟩ : BufTy).Contents (Elt F)),
    ternary main_v128 main_v130 main_v99 main_v131 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v131 main_v132 (broadcastInDim S1700000x1 ![0] bcast_S1700000_S1700000x1_0 : (⟨S1700000, .i32⟩ : BufTy).Contents (Elt F) → (⟨S1700000x1, .i32⟩ : BufTy).Contents (Elt F)),
    binary main_v126 main_v132 main_v133 ((fun x i => Host.gather gather_S100000x64_S1700000x1_S1700000x64_1_0_n_n_0_1_164 x i) : (⟨S100000x64, .f32⟩ : BufTy).Contents (Elt F) → (⟨S1700000x1, .i32⟩ : BufTy).Contents (Elt F) → (⟨S1700000x64, .f32⟩ : BufTy).Contents (Elt F)),
    unary main_v125 main_v134 (broadcastInDim S1700000x1 ![0] bcast_S1700000_S1700000x1_0 : (⟨S1700000, .f32⟩ : BufTy).Contents (Elt F) → (⟨S1700000x1, .f32⟩ : BufTy).Contents (Elt F)),
    unary main_v134 main_v135 (broadcastInDim S1700000x64 ![0, 1] bcast_S1700000x1_S1700000x64_0_1 : (⟨S1700000x1, .f32⟩ : BufTy).Contents (Elt F) → (⟨S1700000x64, .f32⟩ : BufTy).Contents (Elt F)),
    binary main_v133 main_v135 main_v136 (mulf : (⟨S1700000x64, .f32⟩ : BufTy).Contents (Elt F) → (⟨S1700000x64, .f32⟩ : BufTy).Contents (Elt F) → (⟨S1700000x64, .f32⟩ : BufTy).Contents (Elt F)),
    nullary main_cst_30 (constant S_ .f32 0x00000000#32),
    unary main_cst_30 main_v137 (broadcastInDim S100000x64 ![] bcast_S_S100000x64 : (⟨S_, .f32⟩ : BufTy).Contents (Elt F) → (⟨S100000x64, .f32⟩ : BufTy).Contents (Elt F)),
    unary main_v102 main_v138 (broadcastInDim S1700000x1 ![0] bcast_S1700000_S1700000x1_0 : (⟨S1700000, .i32⟩ : BufTy).Contents (Elt F) → (⟨S1700000x1, .i32⟩ : BufTy).Contents (Elt F)),
    ternary main_v137 main_v138 main_v136 main_v139 ((fun x i u => Host.scatterAdd scatter_S100000x64_S1700000x1_S1700000x64_1_0_0_1 x i u) : (⟨S100000x64, .f32⟩ : BufTy).Contents (Elt F) → (⟨S1700000x1, .i32⟩ : BufTy).Contents (Elt F) → (⟨S1700000x64, .f32⟩ : BufTy).Contents (Elt F) → (⟨S100000x64, .f32⟩ : BufTy).Contents (Elt F)),
    unary main_arg7 main_v140 (broadcastInDim S1x64 ![1] bcast_S64_S1x64_1 : (⟨S64, .f32⟩ : BufTy).Contents (Elt F) → (⟨S1x64, .f32⟩ : BufTy).Contents (Elt F)),
    unary main_v140 main_v141 (broadcastInDim S100000x64 ![0, 1] bcast_S1x64_S100000x64_0_1 : (⟨S1x64, .f32⟩ : BufTy).Contents (Elt F) → (⟨S100000x64, .f32⟩ : BufTy).Contents (Elt F)),
    binary main_v139 main_v141 main_v142 (addf : (⟨S100000x64, .f32⟩ : BufTy).Contents (Elt F) → (⟨S100000x64, .f32⟩ : BufTy).Contents (Elt F) → (⟨S100000x64, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., unary_bufs_sub .., unary_bufs_sub .., ternary_bufs_sub .., unary_bufs_sub .., unary_bufs_sub .., binary_bufs_sub ..⟩

set_option maxRecDepth 8192 in
set_option maxHeartbeats 74400000 in
/-- On every device, for any float values, from any memory with zero counters: every weakly fair execution of the
    reference terminates with its result at the graph convolution of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v142) = Cert.Gcn.gcn (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v142).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl)⟩)
    (run_seq scopedRefs_eq scopedSems_eq defs main (fun _ => ops) main_eq (fun _ => ops_sub) m ρ)

end Cert.Gcn.Ref

end
-- ==== Proof.lean ====
/-
  A three-layer graph convolution: a kernel that computes each layer's dense product on the matrix unit, block of
  rows by block of rows, against a reference that computes it as one whole product.

  Both programs compute, for node features `x`, an edge array `e` and three weight/bias pairs,

      h₁ = agg (x · W₁),   h₂ = agg (max (h₁ + b₁, 0) · W₂),   out = agg (max (h₂ + b₂, 0) · W₃) + b₃,

  where `agg h` gathers the source row of `h` for every edge and self-loop, scales it by the product of the
  inverse square roots of the two endpoint degrees, and sums the scaled rows per destination node.  The reference
  recomputes the edge lists, the degrees and the scale factors in every layer; the kernel computes them once: the
  same function of the same edge array.  The kernel's products are taken on 20 blocks of 5000 rows each, the operands
  narrowed to a 16-bit format first; on the extended reals a change of format is the identity, a product into a zero
  accumulator is the plain sum of products, and a row of a product depends on that row of the left factor only, so
  the blocks assemble the whole product the reference takes.  Bias and maximum act entry by entry, so taking them
  inside the kernel on a block of rows or outside it on the whole matrix is the same.  No law that needs finite
  entries is used: the precondition is not opened.

  The kernel's run is read off its frame (every buffer at the fold of the boundary contents: Proof/KernelRun.lean),
  each region's output as a whole product (Proof/Region0.lean, Region1.lean, Region2.lean), the folds walked back to
  the arguments (Proof/KernelValue.lean); the reference's run is a straight line of whole-array operations read back
  (Proof/RefRun.lean).  Both results are the one function `Cert.Gcn.gcn` (Proof/Spec.lean) of the arguments.
-/
import proofs.«121696_j77163382440130_1_alg».proof.Defs
import proofs.«121696_j77163382440130_1_alg».proof.Proof.Gen.Kernel
import proofs.«121696_j77163382440130_1_alg».proof.Proof.Gen.Kernel.Skeleton
import proofs.«121696_j77163382440130_1_alg».proof.Proof.Gen.Kernel.Launch
import proofs.«121696_j77163382440130_1_alg».proof.Proof.Gen.Kernel.Points
import proofs.«121696_j77163382440130_1_alg».proof.Proof.Gen.Kernel.Frame
import proofs.«121696_j77163382440130_1_alg».proof.Proof.Gen.KernelIdeal
import proofs.«121696_j77163382440130_1_alg».proof.Proof.Gen.KernelIdeal.Skeleton
import proofs.«121696_j77163382440130_1_alg».proof.Proof.Gen.KernelIdeal.Launch
import proofs.«121696_j77163382440130_1_alg».proof.Proof.Gen.KernelIdeal.Points
import proofs.«121696_j77163382440130_1_alg».proof.Proof.Gen.KernelIdeal.Frame
import proofs.«121696_j77163382440130_1_alg».proof.Proof.Gen.ReferenceIdeal
import proofs.«121696_j77163382440130_1_alg».proof.Proof.Gen.Pre_finite_inputs
import proofs.«121696_j77163382440130_1_alg».proof.Proof.KernelValue
import proofs.«121696_j77163382440130_1_alg».proof.Proof.RefRun
import Idealize.ShloMosaic.Adequacy
import Idealize.ShloMosaic.Init

noncomputable section

namespace Cert.Proof

open Idealize.ShloMosaic Idealize.ShloMosaic.TcCoe Idealize.SL.Sem

/-- The kernel as printed runs and leaves its arguments. -/
theorem frame_k : Cert.frame_Kernel := fun m ρ _ => Cert.Kernel.Gen.frame m ρ

/-- The idealized kernel runs and leaves its arguments. -/
theorem frame_ki : Cert.frame_KernelIdeal := fun m ρ _ => Cert.KernelIdeal.Gen.frame m ρ

/-- The idealized reference runs and leaves its arguments: its run with the result dropped. -/
theorem frame_ri : Cert.frame_ReferenceIdeal := fun m ρ _ =>
  (θ_run Cert.ReferenceIdeal.defs _ _).mono (fun _ h c => (h c).2) (Cert.Gcn.Ref.run (F := Ideal) m ρ)

/-- The ideal pass rewrote nothing. -/
theorem preserves : Cert.preserves_Kernel_KernelIdeal := trivial

/-- From memories agreeing on the arguments both idealized programs end with the network of the arguments. -/
theorem algebraic : Cert.algebraic_KernelIdeal_ReferenceIdeal := by
  intro m ρ m' ρ' _ hagree
  refine ⟨fun c => Cert.Gcn.gcn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)),
    Cert.KernelIdeal.Hand.run m ρ, ?_⟩
  refine (θ_run Cert.ReferenceIdeal.defs _ _).mono (fun _ h c => ⟨(h c).1.trans ?_, (h c).2⟩) (Cert.Gcn.Ref.run (F := Ideal) m' ρ')
  obtain ⟨h0, h1, h2, h3, h4, h5, h6, h7⟩ := hagree c
  rw [h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
